-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S2048x512 : Shape := ⟨2, ![2048, 512]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x512, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .i32⟩
  | .local _ .vmem, ⟨5, _⟩ => ⟨S1024x1, .i32⟩
  | .local _ .vmem, ⟨6, _⟩ => ⟨S1x2048, .i32⟩
  | .local _ .vmem, ⟨7, _⟩ => ⟨S1x2048, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reducesTo_S8192x1_S_d0_1 : S8192x1.ReducesTo [0, 1] S_
  h_S_ : 0 < S_.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Base.lean ====
/-
  The pairwise-similarity loss kernel on an 8 x 4 grid of points (row tile i, column tile j; point t = 4 i + j):
  what every later module is stated over. The arrays as the region finds them (after the three host lines that
  reshape the labels to a column and a row and change the inputs' float format), each window's block at a point,
  the body's two branch conditions in closed form (j = 0: the accumulator is zeroed first; j = 3: the accumulator
  is copied to the output block), where the output window is idle, and the staging and scratch memrefs a point
  runs on. Everything here is stated for any float instance.
-/
import proofs.«178130_j58858231824724_2_alg».proof.Proof.Gen.Kernel.Launch
import proofs.«178130_j58858231824724_2_alg».proof.Proof.Gen.Kernel.Skeleton
import proofs.«178130_j58858231824724_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the three host lines have run. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the three host lines, the region, the four host lines that sum the row losses and divide. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- "j = 0", as the body computes it from the point's coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "j = 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where j ≠ 3 the body stores nothing into the output block, and the block is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where j = 3 it stores the whole block. -/
theorem liveAt0_4 : ∀ t : Fin cfg0.N, cond0_1 (grid0.coords t) → cfg0.idle 4 (grid0.coords t) = false := by decide +kernel

/-! ## The memrefs a point runs on -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a scratch buffer of the kernel's own, carried from point to point. -/
abbrev scM0_0 : Memref sig .tc .vmem S1024x1 .f32 := Memref.whole cc0_scratch0
/-- A view through which the output block's and the accumulator's contents are stated. -/
abbrev VO0_4 : View sig .tc .vmem S1024x1 .f32 := (Memref.whole cc0_stg4_0 : Memref sig .tc .vmem S1024x1 .f32).view
abbrev VS0_0 : View sig .tc .vmem S1024x1 .f32 := scM0_0.view

/-- What the region's invariant holds besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at a point with j = 0 (the first column tile of a row tile): the accumulator is zeroed, the tile's
  row sums are added to it, and nothing is stored into the output block. From the four input blocks, the output
  block at any contents (handed back as found) and the accumulator at any contents, the body runs to the
  accumulator holding what its two stores wrote, as a list of written pieces the run itself finds.
-/
import proofs.«178130_j58858231824724_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S2048x512 .bf16) (x2 : Vec F S1024x1 .i32) (x3 : Vec F S1x2048 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg2 harg2 arg3 harg3 arg4 harg4 arg5 harg5 arg6 harg6 arg7 harg7) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The body at a point with 0 < j < 3 (a middle column tile): the tile's row sums are added to the accumulator,
  which arrives holding what the point before left; nothing is stored into the output block.
-/
import proofs.«178130_j58858231824724_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S2048x512 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg2 harg2 arg3 harg3 arg4 harg4 arg5 harg5 arg6 harg6 arg7 harg7) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The body at a point with j = 3 (the last column tile of a row tile): the tile's row sums are added to the
  accumulator, and the accumulator, read back, is stored over the whole output block. The output block arrives at
  any contents and leaves holding the pieces the run finds.
-/
import proofs.«178130_j58858231824724_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S2048x512 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg2 harg2 arg3 harg3 arg4 harg4 arg5 harg5 arg6 harg6 arg7 harg7) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Frame.lean ====
/-
  From the three case runs to the pipeline's proof data. What each case leaves in the accumulator and in the output
  block is the run's found pieces read back; point by point these give the accumulator after every point (zeroed and
  restarted where j = 0, continued from the point before elsewhere) and the output block where j = 3. The proof data
  names the arrays as the region finds them, each input block as what the body leaves in its staging buffer, the
  output block at its point-by-point contents, and an invariant carrying the accumulator. The two windows that read
  the one array of inputs (a row tile and a column tile of it) hold it at the left and the right half share. The
  body obligation is then the case run at each point, by cases on j.
-/
import proofs.«178130_j58858231824724_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where j = 0 nothing is stored into the output block: a placeholder nothing consults. -/
def out0_A_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .i32) (x3 : Vec F S1x2048 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)
/-- The accumulator's written pieces cover it. -/
theorem scover0_A_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .i32) (x3 : Vec F S1x2048 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y
/-- What the accumulator holds after a point with j = 0. -/
def sout0_A_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .i32) (x3 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

def out0_B_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)
theorem scover0_B_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .i32) (x3 : Vec F S1x2048 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y
/-- What the accumulator holds after a point with 0 < j < 3, given what the point before left. -/
def sout0_B_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where j = 3 the one store into the output block covers it. -/
theorem cover0_C_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y
/-- What the output block holds after a point with j = 3. -/
def out0_C_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y
def sout0_C_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- After the body at point n: (the output block, the accumulator). Where j = 0 the accumulator restarts; elsewhere it
    continues from what point n - 1 left. -/
def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- An input's staging buffer holds its block at every point, fetched there or not: where it is not fetched the
    block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- At any point the inputs' buffers hold their blocks; the closed forms of the two conditions say which case the
    point is in; the invariant hands the body the accumulator at what the point before left (at anything at the
    very first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- j = 0
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- j = 3
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · -- 0 < j < 3
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

end Cert.Kernel.Hand

end
-- ==== Proof.K.Arrays.lean ====
/-
  The windows' arrays. Two of the five windows read the one array of inputs (a row tile and a column tile of it):
  that array's buffer, held whole, is divided between them along its share, the left half to the row-tile window and
  the right half to the column-tile window, and the two halves put together give the whole back. Both windows only
  read the array, so both halves hold the same contents from the region's entry to its exit.
-/
import proofs.«178130_j58858231824724_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The windows' arrays are whole buffers: each window's points-to is over its whole buffer. -/
theorem arrays_eq' (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The distinct buffers behind the windows' arrays, listed: the inputs' array (read by two windows), the labels as a
    column, the labels as a row, the array of row losses. -/
theorem arrBufs0_eq (c : Dev nD) (W : (b : Ref sig .tc) → Buf (Elt F) ((c : Thread nD τ).loc b)) :
    (Pipeline.arrBufs spec0 c W : sProp 𝕄)
      = iprop((((c : Thread nD τ).loc main_v2) ↦{fullShare} W main_v2) ∗ (((c : Thread nD τ).loc main_v0) ↦{fullShare} W main_v0) ∗ (((c : Thread nD τ).loc main_v1) ↦{fullShare} W main_v1) ∗ (((c : Thread nD τ).loc main_v3) ↦{fullShare} W main_v3)) := by
  unfold Pipeline.arrBufs
  exact bigSep_eq_bigSepL_of_eq [main_v2, main_v0, main_v1, main_v3] (by decide) (by decide) _

/-- The buffers behind the windows' arrays, each whole at contents W, are the windows' arrays at the same contents:
    the inputs' buffer is divided along its share between the two windows that read it, and put together again. -/
theorem arrays_iff (c : Dev nD) (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (Pipeline.arrBufs spec0 c W : sProp 𝕄) ⊣⊢ (dats m 0 c).arrays G := by
  rw [arrays_eq', bigSep_W0, share0, share1, share2, share3, share4, arrBufs0_eq, hG 0, hG 1, hG 2, hG 3, hG 4]
  constructor
  · iintro ⟨H2, H0, H1, H3⟩
    ihave Hs := (pointsTo_share (PosShare.mem_left_op_right fullShare)).1 $$ H2
    icases Hs with ⟨HL, HR⟩
    isplitl [HL]; · iexact HL
    isplitl [HR]; · iexact HR
    isplitl [H0]; · iexact H0
    isplitl [H1]; · iexact H1
    iexact H3
  · iintro ⟨HL, HR, H0, H1, H3⟩
    isplitl [HL HR]
    · iapply (pointsTo_share (PosShare.mem_left_op_right fullShare)).2
      isplitl [HL]; · iexact HL
      iexact HR
    isplitl [H0]; · iexact H0
    isplitl [H1]; · iexact H1
    iexact H3

/-- At the region's entry. -/
theorem hsplit (c : Dev nD) :
    (Pipeline.arrBufs spec0 c (V m c) : sProp 𝕄) ⊢ (dats m 0 c).arrays ((dats m 0 c).arrAt · 0) :=
  (arrays_iff m c (V m c) _ (fun w => A_eq m c w)).1

end Cert.Kernel.Hand

end
-- ==== Proof.K.Tail.lean ====
/-
  The contents the four host lines after the region start from and leave. They start from the array of row losses at
  its final contents and every other buffer as the region found it; they write four scalar buffers (a zero, the sum
  of the row losses, the number of rows, the quotient) and nothing else, so the windows' arrays and the two argument
  arrays hold at the end what they held at the region's exit, and the argument arrays what they held at launch.
-/
import proofs.«178130_j58858231824724_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- What the four host lines start from: the array of row losses at its final contents, every other buffer as the
    region found it (the region writes nothing else that outlives it). -/
def W1 (c : Dev nD) : Valuation τ sig (Elt F) :=
  Function.update (V0 m c) (Proc.devRef .tc main_v3) ((dats m 0 c).arrAt 4 cfg0.N)
/-- What they leave. -/
def W2 (c : Dev nD) : Valuation τ sig (Elt F) := StableHlo.after (List.flatten [hostOps1]) (W1 m c)

theorem W1_v3 (c : Dev nD) : W1 m c (Proc.devRef .tc main_v3) = (dats m 0 c).arrAt 4 cfg0.N := by
  unfold W1; exact Function.update_self _ _ _
theorem W1_of_ne (c : Dev nD) (b : Ref sig .tc) (hb : b ≠ main_v3) : W1 m c (Proc.devRef .tc b) = V m c b := by
  unfold W1; exact Function.update_of_ne (fun e => hb (Proc.devRef_injective _ e)) _ _

/-- Every window's array holds at the region's exit what the valuation the host lines start from says. -/
theorem arrAt_W1 (c : Dev nD) (w : Fin cfg0.W) : (dats m 0 c).arrAt w cfg0.N = W1 m c (Proc.devRef .tc (Pipeline.arrRef spec0 w)) := by
  fin_cases w
  · exact ((dats m 0 c).arrAt_in 0 rfl _).trans ((A_eq m c 0).trans (W1_of_ne m c main_v2 (by decide)).symm)
  · exact ((dats m 0 c).arrAt_in 1 rfl _).trans ((A_eq m c 1).trans (W1_of_ne m c main_v2 (by decide)).symm)
  · exact ((dats m 0 c).arrAt_in 2 rfl _).trans ((A_eq m c 2).trans (W1_of_ne m c main_v0 (by decide)).symm)
  · exact ((dats m 0 c).arrAt_in 3 rfl _).trans ((A_eq m c 3).trans (W1_of_ne m c main_v1 (by decide)).symm)
  · exact (W1_v3 m c).symm

/-- The host lines write none of the windows' arrays. -/
theorem tail_keeps (b : Ref sig .tc) (hb : b ≠ main_cst ∧ b ≠ main_v4 ∧ b ≠ main_cst_0 ∧ b ≠ main_v5) :
    ∀ op ∈ (List.flatten [hostOps1 (F := F)]), Proc.devRef .tc b ∉ op.writes := by
  obtain ⟨h0, h1, h2, h3⟩ := hb
  intro op hop
  simp only [hostOps1, List.flatten_cons, List.flatten_nil, List.append_nil, List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

theorem W2_of_kept (c : Dev nD) (b : Ref sig .tc) (hb : b ≠ main_cst ∧ b ≠ main_v4 ∧ b ≠ main_cst_0 ∧ b ≠ main_v5) :
    W2 m c (Proc.devRef .tc b) = W1 m c (Proc.devRef .tc b) :=
  StableHlo.after_of_forall_not_mem (b := Proc.devRef .tc b) _ _ (tail_keeps b hb)

theorem arrAt_W2 (c : Dev nD) (w : Fin cfg0.W) : (dats m 0 c).arrAt w cfg0.N = W2 m c (Proc.devRef .tc (Pipeline.arrRef spec0 w)) := by
  rw [arrAt_W1]
  fin_cases w <;> exact (W2_of_kept m c _ (by decide)).symm

/-- The argument arrays are written by no host line, before or after the region. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_main_arg0 (c : Dev nD) : W2 m c (Proc.devRef .tc main_arg0) = m ((c : Thread nD τ).loc main_arg0) :=
  (W2_of_kept m c main_arg0 (by decide)).trans ((W1_of_ne m c main_arg0 (by decide)).trans (V_main_arg0 m c))
theorem W2_main_arg1 (c : Dev nD) : W2 m c (Proc.devRef .tc main_arg1) = m ((c : Thread nD τ).loc main_arg1) :=
  (W2_of_kept m c main_arg1 (by decide)).trans ((W1_of_ne m c main_arg1 (by decide)).trans (V_main_arg1 m c))

end Cert.Kernel.Hand

end
-- ==== Proof.K.Launch.lean ====
/-
  The run of the whole program: from any launch memory, every fair execution ends, and at the end the result buffer
  holds what the four host lines compute from the final array of row losses, and the two argument arrays hold what
  they held at launch. The region is launched with windows that may share an array; the host lines after it run
  over all the unscoped buffers, which are whole again once the inputs' array's two halves are put together.
-/
import proofs.«178130_j58858231824724_2_alg».proof.Proof.K.Arrays
import proofs.«178130_j58858231824724_2_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped buffers, held at a valuation, are the buffers behind the windows' arrays and the rest. -/
theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held c W]
  exact Pipeline.unscopedBufs_split₀ cfgs 0 winFacts₀0.arr_unscoped c _

/-- The buffers that are no window's array hold, when the host lines start, what the region found. -/
theorem rest_W1 (c : Dev nD) :
    (Pipeline.unscopedRest spec0 c (fun b => W1 m c (Proc.devRef .tc b)) : sProp 𝕄) = Pipeline.unscopedRest spec0 c (V m c) := by
  rw [unscopedRest0_eq, unscopedRest0_eq, W1_of_ne m c main_arg0 (by decide), W1_of_ne m c main_arg1 (by decide),
    W1_of_ne m c main_cst (by decide), W1_of_ne m c main_v4 (by decide), W1_of_ne m c main_cst_0 (by decide), W1_of_ne m c main_v5 (by decide)]

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- The host lines after the region: from the windows' arrays at their final contents and the other unscoped
    buffers as the region found them, they run, and hand back the arrays as they were and the other buffers at
    what the lines leave. -/
theorem htail (c : Dev nD) (Q' : PUnit → sProp 𝕄) :
    iprop((iprop((dats m 0 c).arrays ((dats m 0 c).arrAt · cfg0.N)
              ∗ Pipeline.unscopedRestP Pipeline.Prefetch.none spec0 c (fun b => W2 m c (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none)
          Set.univ (Pipeline.chain ([hostOps1].map StableHlo.seq)) Q' := by
  have hW : (iprop((dats m 0 c).arrays ((dats m 0 c).arrAt · cfg0.N) ∗ Pipeline.unscopedRestP Pipeline.Prefetch.none spec0 c (V m c)) : sProp 𝕄)
      ⊢ StableHlo.held (c.tc : Thread nD τ) (Pipeline.ucRefs τ sig) (W1 m c) := by
    rw [held_split, Pipeline.unscopedRestP_none, rest_W1]
    iintro ⟨Ha, Hz⟩
    isplitl [Ha]
    · iapply (arrays_iff m c (fun b => W1 m c (Proc.devRef .tc b)) _ (arrAt_W1 m c)).2; iexact Ha
    iexact Hz
  have hW' : (StableHlo.held (c.tc : Thread nD τ) (Pipeline.ucRefs τ sig) (W2 m c) : sProp 𝕄)
      ⊢ iprop((dats m 0 c).arrays ((dats m 0 c).arrAt · cfg0.N) ∗ Pipeline.unscopedRestP Pipeline.Prefetch.none spec0 c (fun b => W2 m c (Proc.devRef .tc b))) := by
    rw [held_split, Pipeline.unscopedRestP_none]
    iintro ⟨Ha, Hz⟩
    isplitl [Ha]
    · iapply (arrays_iff m c (fun b => W2 m c (Proc.devRef .tc b)) _ (arrAt_W2 m c)).1; iexact Ha
    iexact Hz
  rw [← List.append_nil ([hostOps1].map StableHlo.seq)]
  iintro ⟨Hk, Hb, Ha, Hz⟩
  ihave Hh := hW $$ [Ha Hz]
  · isplitl [Ha] <;> iassumption
  iapply (Pipeline.wp_seqs_then (fun q => (cfgs q).toPCfg (Val := Elt F)) defs₀ Variants.none c (Pipeline.ucRefs τ sig) [] [hostOps1] sfx_sub sfx_fresh (W1 m c)) $$ [Hb Hh]
  · isplitl [Hb] <;> iassumption
  iintro Hb
  rw [Pipeline.chain_nil, wp_pure]
  imodintro
  iapply Hk
  icases Hb with ⟨-, H⟩
  iapply hW'
  iexact H

/-- What the run ends with. -/
def Post : PUnit × MemSt nD τ sig (Elt F) → Prop := fun r => ∀ c : Dev nD,
  r.2.mem ((c.tc : Thread nD τ).loc main_v5) = W2 m c (Proc.devRef .tc main_v5)
  ∧ r.2.mem ((c.tc : Thread nD τ).loc main_arg0) = m ((c.tc : Thread nD τ).loc main_arg0)
  ∧ r.2.mem ((c.tc : Thread nD τ).loc main_arg1) = m ((c.tc : Thread nD τ).loc main_arg1)

set_option backward.isDefEq.respectTransparency.types false in
theorem run_main : θ_run defs (onTc (τ := τ) (main (F := F))) ⟨m, fun _ => 0, ρ⟩ (Post m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => W2 m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = W2 m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => W2 m c (Proc.devRef .tc b)) s')
      isplitl [HU] <;> iassumption)
    (hQ := fun s h c => ⟨(h c).2.2 main_v5 (by decide), ((h c).2.2 main_arg0 (by decide)).trans (W2_main_arg0 m c), ((h c).2.2 main_arg1 (by decide)).trans (W2_main_arg1 m c)⟩)

end Cert.Kernel.Hand

end
-- ==== Proof.KI.Base.lean ====
/-
  The pairwise-similarity loss kernel on an 8 x 4 grid of points (row tile i, column tile j; point t = 4 i + j):
  what every later module is stated over. The arrays as the region finds them (after the three host lines that
  reshape the labels to a column and a row and change the inputs' float format), each window's block at a point,
  the body's two branch conditions in closed form (j = 0: the accumulator is zeroed first; j = 3: the accumulator
  is copied to the output block), where the output window is idle, and the staging and scratch memrefs a point
  runs on. Everything here is stated for any float instance.
-/
import proofs.«178130_j58858231824724_2_alg».proof.Proof.Gen.KernelIdeal.Launch
import proofs.«178130_j58858231824724_2_alg».proof.Proof.Gen.KernelIdeal.Skeleton
import proofs.«178130_j58858231824724_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the three host lines have run. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the three host lines, the region, the four host lines that sum the row losses and divide. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- "j = 0", as the body computes it from the point's coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "j = 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where j ≠ 3 the body stores nothing into the output block, and the block is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where j = 3 it stores the whole block. -/
theorem liveAt0_4 : ∀ t : Fin cfg0.N, cond0_1 (grid0.coords t) → cfg0.idle 4 (grid0.coords t) = false := by decide +kernel

/-! ## The memrefs a point runs on -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a scratch buffer of the kernel's own, carried from point to point. -/
abbrev scM0_0 : Memref sig .tc .vmem S1024x1 .f32 := Memref.whole cc0_scratch0
/-- A view through which the output block's and the accumulator's contents are stated. -/
abbrev VO0_4 : View sig .tc .vmem S1024x1 .f32 := (Memref.whole cc0_stg4_0 : Memref sig .tc .vmem S1024x1 .f32).view
abbrev VS0_0 : View sig .tc .vmem S1024x1 .f32 := scM0_0.view

/-- What the region's invariant holds besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at a point with j = 0 (the first column tile of a row tile): the accumulator is zeroed, the tile's
  row sums are added to it, and nothing is stored into the output block. From the four input blocks, the output
  block at any contents (handed back as found) and the accumulator at any contents, the body runs to the
  accumulator holding what its two stores wrote, as a list of written pieces the run itself finds.
-/
import proofs.«178130_j58858231824724_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S2048x512 .bf16) (x2 : Vec F S1024x1 .i32) (x3 : Vec F S1x2048 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg2 harg2 arg3 harg3 arg4 harg4 arg5 harg5 arg6 harg6 arg7 harg7) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The body at a point with 0 < j < 3 (a middle column tile): the tile's row sums are added to the accumulator,
  which arrives holding what the point before left; nothing is stored into the output block.
-/
import proofs.«178130_j58858231824724_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S2048x512 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg2 harg2 arg3 harg3 arg4 harg4 arg5 harg5 arg6 harg6 arg7 harg7) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The body at a point with j = 3 (the last column tile of a row tile): the tile's row sums are added to the
  accumulator, and the accumulator, read back, is stored over the whole output block. The output block arrives at
  any contents and leaves holding the pieces the run finds.
-/
import proofs.«178130_j58858231824724_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S2048x512 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg2 harg2 arg3 harg3 arg4 harg4 arg5 harg5 arg6 harg6 arg7 harg7) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Frame.lean ====
/-
  From the three case runs to the pipeline's proof data. What each case leaves in the accumulator and in the output
  block is the run's found pieces read back; point by point these give the accumulator after every point (zeroed and
  restarted where j = 0, continued from the point before elsewhere) and the output block where j = 3. The proof data
  names the arrays as the region finds them, each input block as what the body leaves in its staging buffer, the
  output block at its point-by-point contents, and an invariant carrying the accumulator. The two windows that read
  the one array of inputs (a row tile and a column tile of it) hold it at the left and the right half share. The
  body obligation is then the case run at each point, by cases on j.
-/
import proofs.«178130_j58858231824724_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where j = 0 nothing is stored into the output block: a placeholder nothing consults. -/
def out0_A_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .i32) (x3 : Vec F S1x2048 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)
/-- The accumulator's written pieces cover it. -/
theorem scover0_A_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .i32) (x3 : Vec F S1x2048 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y
/-- What the accumulator holds after a point with j = 0. -/
def sout0_A_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .i32) (x3 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

def out0_B_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)
theorem scover0_B_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .i32) (x3 : Vec F S1x2048 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y
/-- What the accumulator holds after a point with 0 < j < 3, given what the point before left. -/
def sout0_B_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where j = 3 the one store into the output block covers it. -/
theorem cover0_C_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y
/-- What the output block holds after a point with j = 3. -/
def out0_C_4 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y
def sout0_C_0 (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- After the body at point n: (the output block, the accumulator). Where j = 0 the accumulator restarts; elsewhere it
    continues from what point n - 1 left. -/
def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- An input's staging buffer holds its block at every point, fetched there or not: where it is not fetched the
    block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- At any point the inputs' buffers hold their blocks; the closed forms of the two conditions say which case the
    point is in; the invariant hands the body the accumulator at what the point before left (at anything at the
    very first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- j = 0
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- j = 3
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · -- 0 < j < 3
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

end Cert.KernelIdeal.Hand

end
-- ==== Proof.KI.Arrays.lean ====
/-
  The windows' arrays. Two of the five windows read the one array of inputs (a row tile and a column tile of it):
  that array's buffer, held whole, is divided between them along its share, the left half to the row-tile window and
  the right half to the column-tile window, and the two halves put together give the whole back. Both windows only
  read the array, so both halves hold the same contents from the region's entry to its exit.
-/
import proofs.«178130_j58858231824724_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The windows' arrays are whole buffers: each window's points-to is over its whole buffer. -/
theorem arrays_eq' (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The distinct buffers behind the windows' arrays, listed: the inputs' array (read by two windows), the labels as a
    column, the labels as a row, the array of row losses. -/
theorem arrBufs0_eq (c : Dev nD) (W : (b : Ref sig .tc) → Buf (Elt F) ((c : Thread nD τ).loc b)) :
    (Pipeline.arrBufs spec0 c W : sProp 𝕄)
      = iprop((((c : Thread nD τ).loc main_v2) ↦{fullShare} W main_v2) ∗ (((c : Thread nD τ).loc main_v0) ↦{fullShare} W main_v0) ∗ (((c : Thread nD τ).loc main_v1) ↦{fullShare} W main_v1) ∗ (((c : Thread nD τ).loc main_v3) ↦{fullShare} W main_v3)) := by
  unfold Pipeline.arrBufs
  exact bigSep_eq_bigSepL_of_eq [main_v2, main_v0, main_v1, main_v3] (by decide) (by decide) _

/-- The buffers behind the windows' arrays, each whole at contents W, are the windows' arrays at the same contents:
    the inputs' buffer is divided along its share between the two windows that read it, and put together again. -/
theorem arrays_iff (c : Dev nD) (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (Pipeline.arrBufs spec0 c W : sProp 𝕄) ⊣⊢ (dats m 0 c).arrays G := by
  rw [arrays_eq', bigSep_W0, share0, share1, share2, share3, share4, arrBufs0_eq, hG 0, hG 1, hG 2, hG 3, hG 4]
  constructor
  · iintro ⟨H2, H0, H1, H3⟩
    ihave Hs := (pointsTo_share (PosShare.mem_left_op_right fullShare)).1 $$ H2
    icases Hs with ⟨HL, HR⟩
    isplitl [HL]; · iexact HL
    isplitl [HR]; · iexact HR
    isplitl [H0]; · iexact H0
    isplitl [H1]; · iexact H1
    iexact H3
  · iintro ⟨HL, HR, H0, H1, H3⟩
    isplitl [HL HR]
    · iapply (pointsTo_share (PosShare.mem_left_op_right fullShare)).2
      isplitl [HL]; · iexact HL
      iexact HR
    isplitl [H0]; · iexact H0
    isplitl [H1]; · iexact H1
    iexact H3

/-- At the region's entry. -/
theorem hsplit (c : Dev nD) :
    (Pipeline.arrBufs spec0 c (V m c) : sProp 𝕄) ⊢ (dats m 0 c).arrays ((dats m 0 c).arrAt · 0) :=
  (arrays_iff m c (V m c) _ (fun w => A_eq m c w)).1

end Cert.KernelIdeal.Hand

end
-- ==== Proof.KI.Tail.lean ====
/-
  The contents the four host lines after the region start from and leave. They start from the array of row losses at
  its final contents and every other buffer as the region found it; they write four scalar buffers (a zero, the sum
  of the row losses, the number of rows, the quotient) and nothing else, so the windows' arrays and the two argument
  arrays hold at the end what they held at the region's exit, and the argument arrays what they held at launch.
-/
import proofs.«178130_j58858231824724_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- What the four host lines start from: the array of row losses at its final contents, every other buffer as the
    region found it (the region writes nothing else that outlives it). -/
def W1 (c : Dev nD) : Valuation τ sig (Elt F) :=
  Function.update (V0 m c) (Proc.devRef .tc main_v3) ((dats m 0 c).arrAt 4 cfg0.N)
/-- What they leave. -/
def W2 (c : Dev nD) : Valuation τ sig (Elt F) := StableHlo.after (List.flatten [hostOps1]) (W1 m c)

theorem W1_v3 (c : Dev nD) : W1 m c (Proc.devRef .tc main_v3) = (dats m 0 c).arrAt 4 cfg0.N := by
  unfold W1; exact Function.update_self _ _ _
theorem W1_of_ne (c : Dev nD) (b : Ref sig .tc) (hb : b ≠ main_v3) : W1 m c (Proc.devRef .tc b) = V m c b := by
  unfold W1; exact Function.update_of_ne (fun e => hb (Proc.devRef_injective _ e)) _ _

/-- Every window's array holds at the region's exit what the valuation the host lines start from says. -/
theorem arrAt_W1 (c : Dev nD) (w : Fin cfg0.W) : (dats m 0 c).arrAt w cfg0.N = W1 m c (Proc.devRef .tc (Pipeline.arrRef spec0 w)) := by
  fin_cases w
  · exact ((dats m 0 c).arrAt_in 0 rfl _).trans ((A_eq m c 0).trans (W1_of_ne m c main_v2 (by decide)).symm)
  · exact ((dats m 0 c).arrAt_in 1 rfl _).trans ((A_eq m c 1).trans (W1_of_ne m c main_v2 (by decide)).symm)
  · exact ((dats m 0 c).arrAt_in 2 rfl _).trans ((A_eq m c 2).trans (W1_of_ne m c main_v0 (by decide)).symm)
  · exact ((dats m 0 c).arrAt_in 3 rfl _).trans ((A_eq m c 3).trans (W1_of_ne m c main_v1 (by decide)).symm)
  · exact (W1_v3 m c).symm

/-- The host lines write none of the windows' arrays. -/
theorem tail_keeps (b : Ref sig .tc) (hb : b ≠ main_cst ∧ b ≠ main_v4 ∧ b ≠ main_cst_0 ∧ b ≠ main_v5) :
    ∀ op ∈ (List.flatten [hostOps1 (F := F)]), Proc.devRef .tc b ∉ op.writes := by
  obtain ⟨h0, h1, h2, h3⟩ := hb
  intro op hop
  simp only [hostOps1, List.flatten_cons, List.flatten_nil, List.append_nil, List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

theorem W2_of_kept (c : Dev nD) (b : Ref sig .tc) (hb : b ≠ main_cst ∧ b ≠ main_v4 ∧ b ≠ main_cst_0 ∧ b ≠ main_v5) :
    W2 m c (Proc.devRef .tc b) = W1 m c (Proc.devRef .tc b) :=
  StableHlo.after_of_forall_not_mem (b := Proc.devRef .tc b) _ _ (tail_keeps b hb)

theorem arrAt_W2 (c : Dev nD) (w : Fin cfg0.W) : (dats m 0 c).arrAt w cfg0.N = W2 m c (Proc.devRef .tc (Pipeline.arrRef spec0 w)) := by
  rw [arrAt_W1]
  fin_cases w <;> exact (W2_of_kept m c _ (by decide)).symm

/-- The argument arrays are written by no host line, before or after the region. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_main_arg0 (c : Dev nD) : W2 m c (Proc.devRef .tc main_arg0) = m ((c : Thread nD τ).loc main_arg0) :=
  (W2_of_kept m c main_arg0 (by decide)).trans ((W1_of_ne m c main_arg0 (by decide)).trans (V_main_arg0 m c))
theorem W2_main_arg1 (c : Dev nD) : W2 m c (Proc.devRef .tc main_arg1) = m ((c : Thread nD τ).loc main_arg1) :=
  (W2_of_kept m c main_arg1 (by decide)).trans ((W1_of_ne m c main_arg1 (by decide)).trans (V_main_arg1 m c))

end Cert.KernelIdeal.Hand

end
-- ==== Proof.KI.Launch.lean ====
/-
  The run of the whole program: from any launch memory, every fair execution ends, and at the end the result buffer
  holds what the four host lines compute from the final array of row losses, and the two argument arrays hold what
  they held at launch. The region is launched with windows that may share an array; the host lines after it run
  over all the unscoped buffers, which are whole again once the inputs' array's two halves are put together.
-/
import proofs.«178130_j58858231824724_2_alg».proof.Proof.KI.Arrays
import proofs.«178130_j58858231824724_2_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped buffers, held at a valuation, are the buffers behind the windows' arrays and the rest. -/
theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held c W]
  exact Pipeline.unscopedBufs_split₀ cfgs 0 winFacts₀0.arr_unscoped c _

/-- The buffers that are no window's array hold, when the host lines start, what the region found. -/
theorem rest_W1 (c : Dev nD) :
    (Pipeline.unscopedRest spec0 c (fun b => W1 m c (Proc.devRef .tc b)) : sProp 𝕄) = Pipeline.unscopedRest spec0 c (V m c) := by
  rw [unscopedRest0_eq, unscopedRest0_eq, W1_of_ne m c main_arg0 (by decide), W1_of_ne m c main_arg1 (by decide),
    W1_of_ne m c main_cst (by decide), W1_of_ne m c main_v4 (by decide), W1_of_ne m c main_cst_0 (by decide), W1_of_ne m c main_v5 (by decide)]

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- The host lines after the region: from the windows' arrays at their final contents and the other unscoped
    buffers as the region found them, they run, and hand back the arrays as they were and the other buffers at
    what the lines leave. -/
theorem htail (c : Dev nD) (Q' : PUnit → sProp 𝕄) :
    iprop((iprop((dats m 0 c).arrays ((dats m 0 c).arrAt · cfg0.N)
              ∗ Pipeline.unscopedRestP Pipeline.Prefetch.none spec0 c (fun b => W2 m c (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none)
          Set.univ (Pipeline.chain ([hostOps1].map StableHlo.seq)) Q' := by
  have hW : (iprop((dats m 0 c).arrays ((dats m 0 c).arrAt · cfg0.N) ∗ Pipeline.unscopedRestP Pipeline.Prefetch.none spec0 c (V m c)) : sProp 𝕄)
      ⊢ StableHlo.held (c.tc : Thread nD τ) (Pipeline.ucRefs τ sig) (W1 m c) := by
    rw [held_split, Pipeline.unscopedRestP_none, rest_W1]
    iintro ⟨Ha, Hz⟩
    isplitl [Ha]
    · iapply (arrays_iff m c (fun b => W1 m c (Proc.devRef .tc b)) _ (arrAt_W1 m c)).2; iexact Ha
    iexact Hz
  have hW' : (StableHlo.held (c.tc : Thread nD τ) (Pipeline.ucRefs τ sig) (W2 m c) : sProp 𝕄)
      ⊢ iprop((dats m 0 c).arrays ((dats m 0 c).arrAt · cfg0.N) ∗ Pipeline.unscopedRestP Pipeline.Prefetch.none spec0 c (fun b => W2 m c (Proc.devRef .tc b))) := by
    rw [held_split, Pipeline.unscopedRestP_none]
    iintro ⟨Ha, Hz⟩
    isplitl [Ha]
    · iapply (arrays_iff m c (fun b => W2 m c (Proc.devRef .tc b)) _ (arrAt_W2 m c)).1; iexact Ha
    iexact Hz
  rw [← List.append_nil ([hostOps1].map StableHlo.seq)]
  iintro ⟨Hk, Hb, Ha, Hz⟩
  ihave Hh := hW $$ [Ha Hz]
  · isplitl [Ha] <;> iassumption
  iapply (Pipeline.wp_seqs_then (fun q => (cfgs q).toPCfg (Val := Elt F)) defs₀ Variants.none c (Pipeline.ucRefs τ sig) [] [hostOps1] sfx_sub sfx_fresh (W1 m c)) $$ [Hb Hh]
  · isplitl [Hb] <;> iassumption
  iintro Hb
  rw [Pipeline.chain_nil, wp_pure]
  imodintro
  iapply Hk
  icases Hb with ⟨-, H⟩
  iapply hW'
  iexact H

/-- What the run ends with. -/
def Post : PUnit × MemSt nD τ sig (Elt F) → Prop := fun r => ∀ c : Dev nD,
  r.2.mem ((c.tc : Thread nD τ).loc main_v5) = W2 m c (Proc.devRef .tc main_v5)
  ∧ r.2.mem ((c.tc : Thread nD τ).loc main_arg0) = m ((c.tc : Thread nD τ).loc main_arg0)
  ∧ r.2.mem ((c.tc : Thread nD τ).loc main_arg1) = m ((c.tc : Thread nD τ).loc main_arg1)

set_option backward.isDefEq.respectTransparency.types false in
theorem run_main : θ_run defs (onTc (τ := τ) (main (F := F))) ⟨m, fun _ => 0, ρ⟩ (Post m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => W2 m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = W2 m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => W2 m c (Proc.devRef .tc b)) s')
      isplitl [HU] <;> iassumption)
    (hQ := fun s h c => ⟨(h c).2.2 main_v5 (by decide), ((h c).2.2 main_arg0 (by decide)).trans (W2_main_arg0 m c), ((h c).2.2 main_arg1 (by decide)).trans (W2_main_arg1 m c)⟩)

end Cert.KernelIdeal.Hand

end
-- ==== Proof.KI.Blocks.lean ====
/-
  The arrays the region finds and the windows' blocks, read entry by entry at exact values: the inputs in the
  narrower float format are the inputs, the label column and row are the labels, and the block of each input
  window at grid point t (row tile t / 4, column tile t % 4) is the rows 1024 (t / 4) .. of the inputs, the rows
  2048 (t % 4) .. of the inputs, the labels 1024 (t / 4) .. and the labels 2048 (t % 4) ... Last, the output
  window: its block at point t is the rows 1024 (t / 4) .. of the output column, written back where t % 4 = 3,
  so every row is in exactly one block that is written back.
-/
import proofs.«178130_j58858231824724_2_alg».proof.Proof.KI.Base
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The arrays as the region finds them

Three host lines run before the region: the labels `[8192]` are viewed as a column `[8192, 1]` and as a row
`[1, 8192]`, and the inputs `[8192, 512]` change float format, which at exact values is the identity. -/

/-- The inputs in the narrower format, as one term. -/
theorem V_v2_eq (c : Dev nD) :
    (V m c main_v2 : S8192x512.Idx → Elt Ideal .bf16)
      = truncf (F := Ideal) .bf16 (m ((c : Thread nD τ).loc main_arg0) : S8192x512.Idx → Ideal .f32) bitsLt_bf16_f32 := by
  show StableHlo.after hostOps0 (fun b => m (c, b)) (Proc.devRef .tc main_v2) = _
  after_results

/-- The inputs in the narrower format are the inputs, entry by entry. -/
theorem V_v2_apply (c : Dev nD) (i : Fin 8192) (k : Fin 512) :
    (V m c main_v2 : S8192x512.Idx → Elt Ideal .bf16) (ix2 i k)
      = (m ((c : Thread nD τ).loc main_arg0) : S8192x512.Idx → Elt Ideal .f32) (ix2 i k) := by
  rw [V_v2_eq]
  rfl

/-- The label column, as one term. -/
theorem V_v0_eq (c : Dev nD) :
    (V m c main_v0 : S8192x1.Idx → Elt Ideal .i32)
      = shapeCast S8192x1 (m ((c : Thread nD τ).loc main_arg1) : S8192.Idx → Elt Ideal .i32) shapeCasts_S8192_S8192x1 := by
  show StableHlo.after hostOps0 (fun b => m (c, b)) (Proc.devRef .tc main_v0) = _
  after_results
  rfl

/-- The label row, as one term. -/
theorem V_v1_eq (c : Dev nD) :
    (V m c main_v1 : S1x8192.Idx → Elt Ideal .i32)
      = shapeCast S1x8192 (m ((c : Thread nD τ).loc main_arg1) : S8192.Idx → Elt Ideal .i32) shapeCasts_S8192_S1x8192 := by
  show StableHlo.after hostOps0 (fun b => m (c, b)) (Proc.devRef .tc main_v1) = _
  after_results
  rfl

/-- A vector `[8192]` viewed as a column `[8192, 1]` reads, at `(i, 0)`, the vector's entry `i`. -/
theorem cast_column {α : Type} (x : (⟨1, ![8192]⟩ : Shape).Idx → α)
    (h : (⟨1, ![8192]⟩ : Shape).ShapeCasts ⟨2, ![8192, 1]⟩) (i : Fin 8192) (u : Fin 1) :
    shapeCast ⟨2, ![8192, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The label column at row `i` is label `i`. -/
theorem V_v0_apply (c : Dev nD) (i : Fin 8192) :
    (V m c main_v0 : S8192x1.Idx → Elt Ideal .i32) (ix2 i (0 : Fin 1))
      = (m ((c : Thread nD τ).loc main_arg1) : S8192.Idx → Elt Ideal .i32) (ix1 i) := by
  rw [V_v0_eq]
  exact cast_column _ _ i 0

/-- The label row at column `j` is label `j`. -/
theorem V_v1_apply (c : Dev nD) (j : Fin 8192) :
    (V m c main_v1 : S1x8192.Idx → Elt Ideal .i32) (ix2 (0 : Fin 1) j)
      = (m ((c : Thread nD τ).loc main_arg1) : S8192.Idx → Elt Ideal .i32) (ix1 j) := by
  rw [V_v1_eq]
  exact shapeCast_a_1a_apply _ _ 0 j

/-! ## The windows' blocks at a point

The grid is 8 x 4, row-major: point `t` has row tile `t / 4` and column tile `t % 4`. A block's coordinate in its
array is the block's index times the block's size plus the coordinate inside the block. -/

/-- The printed index maps, decided once over the grid. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-- Row `r` of the row tile of point `t`, as a row of the whole array. -/
abbrev rowOf (t : Fin cfg0.N) (r : Fin 1024) : Fin 8192 :=
  ⟨1024 * (t.val / 4) + r.val, by have hN : cfg0.N = 32 := N_0; have := t.isLt; have := r.isLt; omega⟩
/-- Column `jj` of the column tile of point `t`, as a row of the whole array. -/
abbrev colOf (t : Fin cfg0.N) (jj : Fin 2048) : Fin 8192 :=
  ⟨2048 * (t.val % 4) + jj.val, by have := jj.isLt; omega⟩

/-- The row tile: rows `1024 (t / 4) ..` of the inputs. -/
theorem iblk0_apply (c : Dev nD) (t : Fin cfg0.N) (r : Fin 1024) (k : Fin 512) :
    (iblk m c 0 t : Vec Ideal S1024x512 .bf16) (ix2 r k)
      = (m ((c : Thread nD τ).loc main_arg0) : S8192x512.Idx → Elt Ideal .f32) (ix2 (rowOf t r) k) := by
  obtain ⟨e0, e1, -⟩ := idx_facts t
  refine Eq.trans ?_ (V_v2_apply m c (rowOf t r) k)
  unfold iblk
  rw [View.read_apply]
  show V m c main_v2 _ = V m c main_v2 _
  congr 1
  funext a
  apply Fin.ext
  match a with
  | ⟨0, _⟩ => show win0_0.index t 0 * 1024 + 1 * r.val = 1024 * (t.val / 4) + r.val; rw [e0]; omega
  | ⟨1, _⟩ => show win0_0.index t 1 * 512 + 1 * k.val = k.val; rw [e1]; omega

/-- The column tile: rows `2048 (t % 4) ..` of the inputs. -/
theorem iblk1_apply (c : Dev nD) (t : Fin cfg0.N) (jj : Fin 2048) (k : Fin 512) :
    (iblk m c 1 t : Vec Ideal S2048x512 .bf16) (ix2 jj k)
      = (m ((c : Thread nD τ).loc main_arg0) : S8192x512.Idx → Elt Ideal .f32) (ix2 (colOf t jj) k) := by
  obtain ⟨-, -, e0, e1, -⟩ := idx_facts t
  refine Eq.trans ?_ (V_v2_apply m c (colOf t jj) k)
  unfold iblk
  rw [View.read_apply]
  show V m c main_v2 _ = V m c main_v2 _
  congr 1
  funext a
  apply Fin.ext
  match a with
  | ⟨0, _⟩ => show win0_1.index t 0 * 2048 + 1 * jj.val = 2048 * (t.val % 4) + jj.val; rw [e0]; omega
  | ⟨1, _⟩ => show win0_1.index t 1 * 512 + 1 * k.val = k.val; rw [e1]; omega

/-- The row tile's labels: labels `1024 (t / 4) ..`. -/
theorem iblk2_apply (c : Dev nD) (t : Fin cfg0.N) (r : Fin 1024) :
    (iblk m c 2 t : Vec Ideal S1024x1 .i32) (ix2 r (0 : Fin 1))
      = (m ((c : Thread nD τ).loc main_arg1) : S8192.Idx → Elt Ideal .i32) (ix1 (rowOf t r)) := by
  obtain ⟨-, -, -, -, e0, e1, -⟩ := idx_facts t
  refine Eq.trans ?_ (V_v0_apply m c (rowOf t r))
  unfold iblk
  rw [View.read_apply]
  show V m c main_v0 _ = V m c main_v0 _
  congr 1
  funext a
  apply Fin.ext
  match a with
  | ⟨0, _⟩ => show win0_2.index t 0 * 1024 + 1 * r.val = 1024 * (t.val / 4) + r.val; rw [e0]; omega
  | ⟨1, _⟩ => show win0_2.index t 1 * 1 + 1 * 0 = 0; rw [e1]

/-- The column tile's labels: labels `2048 (t % 4) ..`. -/
theorem iblk3_apply (c : Dev nD) (t : Fin cfg0.N) (jj : Fin 2048) :
    (iblk m c 3 t : Vec Ideal S1x2048 .i32) (ix2 (0 : Fin 1) jj)
      = (m ((c : Thread nD τ).loc main_arg1) : S8192.Idx → Elt Ideal .i32) (ix1 (colOf t jj)) := by
  obtain ⟨-, -, -, -, -, -, e0, e1, -⟩ := idx_facts t
  refine Eq.trans ?_ (V_v1_apply m c (colOf t jj))
  unfold iblk
  rw [View.read_apply]
  show V m c main_v1 _ = V m c main_v1 _
  congr 1
  funext a
  apply Fin.ext
  match a with
  | ⟨0, _⟩ => show win0_3.index t 0 * 1 + 1 * 0 = 0; rw [e0]
  | ⟨1, _⟩ => show win0_3.index t 1 * 2048 + 1 * jj.val = 2048 * (t.val % 4) + jj.val; rw [e1]; omega

/-! ## The output window's blocks

The output array is `[8192, 1]`; the block of point `t` is rows `1024 (t / 4) ..`, and it is written back at the
points with `t % 4 = 3` only: one point per row tile. So every row lies in exactly one block that is written back. -/

/-- The last column step of row tile `I`: the point that writes the tile's block back. -/
abbrev lastOf (I : Fin 8) : Fin cfg0.N :=
  ⟨4 * I.val + 3, by rw [show cfg0.N = 32 from N_0]; have := I.isLt; omega⟩

/-- An index of the array is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3).slice (win0_4.rect t)).set ↔ _
  rw [View.set_slice_whole, Rect.mem_set_unit]
  exact Iff.rfl

/-- The same by rows: the block of point `t` is the rows `1024 (t / 4) .. 1024 (t / 4) + 1023`. -/
theorem mem_blk4_iff (t : Fin cfg0.N) (i : S8192x1.Idx) :
    i ∈ ((cfg0.win 4).blk t).view.set ↔ 1024 * (t.val / 4) ≤ (i 0).val ∧ (i 0).val < 1024 * (t.val / 4) + 1024 := by
  rw [mem_blk4]
  obtain ⟨-, -, -, -, -, -, -, -, e0, e1⟩ := idx_facts t
  constructor
  · intro h
    have b0 : win0_4.index t (0 : Fin 2) * 1024 ≤ (i 0).val ∧ (i 0).val < win0_4.index t (0 : Fin 2) * 1024 + 1024 := h 0
    omega
  · intro h a
    match a with
    | ⟨0, _⟩ => show win0_4.index t (0 : Fin 2) * 1024 ≤ (i 0).val ∧ (i 0).val < win0_4.index t (0 : Fin 2) * 1024 + 1024; omega
    | ⟨1, _⟩ =>
      show win0_4.index t (1 : Fin 2) * 1 ≤ (i 1).val ∧ (i 1).val < win0_4.index t (1 : Fin 2) * 1 + 1
      have h1 : (i 1).val < 1 := (i 1).isLt
      omega

/-- Every row is in the block some point writes back: row `i` in that of the last column step of row tile `i / 1024`. -/
theorem cover4 (i : S8192x1.Idx) :
    ∃ t : Fin cfg0.N, (cfg0.win 4).flush t = true ∧ i ∈ ((cfg0.win 4).blk t).view.set := by
  have hi : (i 0).val < 8192 := (i 0).isLt
  refine ⟨lastOf ⟨(i 0).val / 1024, by omega⟩, (flush0_4 _).mpr ?_, ?_⟩
  · show (4 * ((i 0).val / 1024) + 3) % 4 = 3
    omega
  · rw [mem_blk4_iff]
    show 1024 * ((4 * ((i 0).val / 1024) + 3) / 4) ≤ (i 0).val ∧ (i 0).val < 1024 * ((4 * ((i 0).val / 1024) + 3) / 4) + 1024
    omega

/-- Two points that write back and share a row are the same point. -/
theorem blk4_unique (t t' : Fin cfg0.N) (hf : (cfg0.win 4).flush t = true) (hf' : (cfg0.win 4).flush t' = true)
    (i : S8192x1.Idx) (hi : i ∈ ((cfg0.win 4).blk t).view.set) (hi' : i ∈ ((cfg0.win 4).blk t').view.set) : t = t' := by
  rw [mem_blk4_iff] at hi hi'
  have h3 := (flush0_4 t).mp hf
  have h3' := (flush0_4 t').mp hf'
  exact Fin.ext (by omega)

/-- So the blocks written back are pairwise disjoint. -/
theorem blk4_disjoint (t t' : Fin cfg0.N) (hf : (cfg0.win 4).flush t = true) (hf' : (cfg0.win 4).flush t' = true)
    (hne : t ≠ t') : Disjoint ((cfg0.win 4).blk t).view.set ((cfg0.win 4).blk t').view.set :=
  Finset.disjoint_left.mpr fun i hi hi' => hne (blk4_unique t t' hf hf' i hi hi')

/-- The block coordinate `(r, 0)` of point `t`'s output block is row `1024 (t / 4) + r` of the array. -/
theorem emb_blk4 (t : Fin cfg0.N) (r : Fin 1024) :
    (((cfg0.win 4).blk t).view.emb (ix2 r (0 : Fin 1) : S1024x1.Idx) : S8192x1.Idx) = ix2 (rowOf t r) (0 : Fin 1) := by
  obtain ⟨-, -, -, -, -, -, -, -, e0, e1⟩ := idx_facts t
  funext a
  apply Fin.ext
  match a with
  | ⟨0, _⟩ => show win0_4.index t 0 * 1024 + 1 * r.val = 1024 * (t.val / 4) + r.val; rw [e0]; omega
  | ⟨1, _⟩ => show win0_4.index t 1 * 1 + 1 * 0 = 0; rw [e1]

/-- A function of the array's index read through point `t`'s output block, at `(r, 0)`. -/
theorem read_blk4 (G : S8192x1.Idx → Elt Ideal .f32) (t : Fin cfg0.N) (r : Fin 1024) :
    (((cfg0.win 4).blk t).view.read (Elt Ideal) G : S1024x1.Idx → Elt Ideal .f32) (ix2 r (0 : Fin 1))
      = G (ix2 (rowOf t r) (0 : Fin 1)) := by
  rw [View.read_apply]
  exact congrArg G (emb_blk4 t r)

/-- Row `1024 I + r` is row `r` of the block the last column step of row tile `I` writes back … -/
theorem rowOf_lastOf (I : Fin 8) (r : Fin 1024) :
    rowOf (lastOf I) r = ⟨1024 * I.val + r.val, by have := I.isLt; have := r.isLt; omega⟩ :=
  Fin.ext (by show 1024 * ((4 * I.val + 3) / 4) + r.val = 1024 * I.val + r.val; omega)

/-- … that point does write back … -/
theorem flush_lastOf (I : Fin 8) : (cfg0.win 4).flush (lastOf I) = true :=
  (flush0_4 _).mpr (by show (4 * I.val + 3) % 4 = 3; omega)

/-- … and the row lies in its block. -/
theorem row_mem_blk4 (I : Fin 8) (r : Fin 1024) :
    (ix2 (⟨1024 * I.val + r.val, by have := I.isLt; have := r.isLt; omega⟩ : Fin 8192) (0 : Fin 1) : S8192x1.Idx)
      ∈ ((cfg0.win 4).blk (lastOf I)).view.set := by
  rw [mem_blk4_iff]
  show 1024 * ((4 * I.val + 3) / 4) ≤ 1024 * I.val + r.val ∧ 1024 * I.val + r.val < 1024 * ((4 * I.val + 3) / 4) + 1024
  have := r.isLt
  omega

end Cert.KernelIdeal.Hand

end
-- ==== Proof.KI.Pieces.lean ====
/-
  What the three cases of the body leave, as the body's arithmetic.

  The run of each case finds the list of pieces it wrote into the accumulator (and, where j = 3, into the
  output block). Every store and every load of the body goes through the whole buffer, so a list of such
  stores leaves the payload of the last one, and a load after a store reads that store's payload. Read this
  way: where j = 0 the accumulator ends at the running-sum payload of the four input blocks and the zero
  block; elsewhere at the running-sum payload of the four input blocks and what the point before left;
  and where j = 3 the output block ends at the same contents as the accumulator.
-/
import proofs.«178130_j58858231824724_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every rectangle of the body are zero. -/
theorem hz00 : (![0, 0] : Fin 2 → Nat) = fun _ => 0 := funext fun a => by fin_cases a <;> rfl

/-- Where 0 < j < 3: the accumulator ends at the running-sum payload of the blocks and what the point before left. -/
theorem sout0_B_0_eq (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .i32) (x3 : Vec F S1x2048 .i32) (xs0 : Vec F S1024x1 .f32) :
    sout0_B_0 c i arg2 harg2 arg3 harg3 arg4 harg4 arg5 harg5 arg6 harg6 arg7 harg7 hc0 hc1 x0 x1 x2 x3 xs0 = k0_pay1 (k0_pay3 x0 x1 x2 x3 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1024x1) hz00]
  simp only [View.readAt_eq_ld, harg2.read_unread, harg3.read_unread, harg4.read_unread, harg5.read_unread,
    harg7.read_unread, View.ld_unit_zero (S := S1024x512) hz00, View.ld_unit_zero (S := S2048x512) hz00,
    View.ld_unit_zero (S := S1024x1) hz00, View.ld_unit_zero (S := S1x2048) hz00]

/-- Where j = 0: the accumulator is first stored the zero block, which the running sum then reads back. -/
theorem sout0_A_0_eq (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .i32) (x3 : Vec F S1x2048 .i32) :
    sout0_A_0 c i arg2 harg2 arg3 harg3 arg4 harg4 arg5 harg5 arg6 harg6 arg7 harg7 hc0 hc1 x0 x1 x2 x3 = k0_pay1 (k0_pay3 x0 x1 x2 x3 (k0_pay2 (F := F))) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1) hz00, View.readCov_unit_zero (S := S1024x1) _ hz00]
  simp only [View.readAt_eq_ld, harg2.read_unread, harg3.read_unread, harg4.read_unread, harg5.read_unread,
    View.ld_unit_zero (S := S1024x512) hz00, View.ld_unit_zero (S := S2048x512) hz00,
    View.ld_unit_zero (S := S1024x1) hz00, View.ld_unit_zero (S := S1x2048) hz00]

/-- Where j = 3 the accumulator ends as where 0 < j < 3. -/
theorem sout0_C_0_eq (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) :
    sout0_C_0 c i arg2 harg2 arg3 harg3 arg4 harg4 arg5 harg5 arg6 harg6 arg7 harg7 hc0 hc1 x0 x1 x2 x3 xs0 = k0_pay1 (k0_pay3 x0 x1 x2 x3 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x1) hz00]
  simp only [View.readAt_eq_ld, harg2.read_unread, harg3.read_unread, harg4.read_unread, harg5.read_unread,
    harg7.read_unread, View.ld_unit_zero (S := S1024x512) hz00, View.ld_unit_zero (S := S2048x512) hz00,
    View.ld_unit_zero (S := S1024x1) hz00, View.ld_unit_zero (S := S1x2048) hz00]

/-- Where j = 3 the output block is stored what the accumulator, read back, holds. -/
theorem out0_C_4_eq (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .i32) (x3 : Vec F S1x2048 .i32) (xs0 : Vec F S1024x1 .f32) :
    out0_C_4 c i arg2 harg2 arg3 harg3 arg4 harg4 arg5 harg5 arg6 harg6 arg7 harg7 hc0 hc1 x0 x1 x2 x3 xs0 = k0_pay1 (k0_pay3 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x1) hz00, View.readCov_unit_zero (S := S1024x1) _ hz00]
  simp only [View.readAt_eq_ld, harg2.read_unread, harg3.read_unread, harg4.read_unread, harg5.read_unread,
    harg7.read_unread, View.ld_unit_zero (S := S1024x512) hz00, View.ld_unit_zero (S := S2048x512) hz00,
    View.ld_unit_zero (S := S1024x1) hz00, View.ld_unit_zero (S := S1x2048) hz00]

end Cert.KernelIdeal.Hand

end
-- ==== Proof.TileSum.lean ====
import proofs.«178130_j58858231824724_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.TileSum

open Cert.KernelIdeal Cert.KernelIdeal.Gen Idealize.ShloMosaic Idealize.ShloMosaic.ValueIdx Idealize.SL.Sem

/-- A shape cast to the same shape changes nothing: the row's running sums are stored as they are. -/
theorem pay1_eq (v : FVec Ideal S1024x1 .f32) : Cert.KernelIdeal.Gen.k0_pay1 (F := Ideal) v = v := by
  unfold Cert.KernelIdeal.Gen.k0_pay1
  exact shapeCast_self v _

/-- The block the first column step starts from is the zero block. -/
theorem pay2_apply (i : S1024x1.Idx) : Cert.KernelIdeal.Gen.k0_pay2 (F := Ideal) i = 0 := by
  unfold Cert.KernelIdeal.Gen.k0_pay2
  rw [shapeCast_self]
  exact Ideal.ofBits_zero_f32

/-! ## The layout operations of the body at an index -/

/-- A column `[1024, 1]` broadcast along the columns reads, at `(r, jj)`, the column's entry of row `r`. -/
theorem bcast_col (v : (⟨2, ![1024, 1]⟩ : Shape).Idx → BitVec 32)
    (h : (⟨2, ![1024, 1]⟩ : Shape).Broadcasts ⟨2, ![1024, 2048]⟩) (r : Fin 1024) (jj : Fin 2048) :
    broadcastTo ⟨2, ![1024, 2048]⟩ v h (ix2 r jj) = v (ix2 r (0 : Fin 1)) := by
  refine broadcastTo_apply v h (ix2 r jj) (ix2 r (0 : Fin 1)) fun ax => ?_
  match ax with
  | ⟨0, _⟩ =>
    show r.val = if (1024 : Nat) = 1 then 0 else r.val
    rw [if_neg (by decide)]
  | ⟨1, _⟩ => rfl

/-- A vector `[1024]` viewed as a column `[1024, 1]` reads, at `(r, 0)`, the vector's entry `r`. -/
theorem cast_col (x : (⟨1, ![1024]⟩ : Shape).Idx → EReal)
    (h : (⟨1, ![1024]⟩ : Shape).ShapeCasts ⟨2, ![1024, 1]⟩) (r : Fin 1024) (u : Fin 1) :
    shapeCast ⟨2, ![1024, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The lane sum of a `[1024, 2048]` array along its columns, at row `r`, is the sum over the 2048 columns. -/
theorem lane_sum (src : FVec Ideal S1024x2048 .f32) (h : S1024x2048.Reduces [1] S1024)
    (hφ : FKind.Formats .f32) (hacc : (0x00000000#32 : BitVec 32) = 0x00000000#32) (r : Fin 1024) :
    multiReduction (F := Ideal) .add [1] S1024 src 0x00000000#32 h hφ hacc (ix1 r)
      = ∑ jj : Fin 2048, src (ix2 r jj) := by
  refine (Ideal.multiReduction_add_single src 0x00000000#32 h hφ hacc (ix1 r)).trans ?_
  refine Finset.sum_congr rfl fun jj _ => congrArg src ?_
  funext a
  match a with
  | ⟨0, _⟩ => exact Fin.ext rfl
  | ⟨1, _⟩ => exact Fin.ext rfl

/-! ## The tile product at an index -/

/-- The left operand's row coordinate is the output's row. -/
theorem dot_lhs_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- The left operand's second coordinate is the contracted one. -/
theorem dot_lhs_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- The right operand's row coordinate is the output's column. -/
theorem dot_rhs_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- The right operand's second coordinate is the contracted one. -/
theorem dot_rhs_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The product of a row tile and a column tile, both contracted over their 512 axis, into the zero
    block: at `(r, jj)` the sum over `k` of the row tile at `(r, k)` times the column tile at `(jj, k)`. -/
theorem tile_dot (xr : FVec Ideal S1024x512 .bf16) (xc : FVec Ideal S2048x512 .bf16) (r : Fin 1024) (jj : Fin 2048) :
    matmul (F := Ideal) dot_S1024x512_S2048x512_S1024x2048_1_1_0_0_n_n none xr xc
        (constant (F := Ideal) S1024x2048 .f32 0x00000000#32) (ix2 r jj)
      = ∑ k : Fin 512, xr (ix2 r k) * xc (ix2 jj k) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r jj) ((ValueIdx.contrEquiv1 dot_S1024x512_S2048x512_S1024x2048_1_1_0_0_n_n 512 rfl rfl).symm k) = ix2 r k := funext fun a => Fin.ext (by
    match a with
    | ⟨0, _⟩ => exact dot_lhs_0 _ _
    | ⟨1, _⟩ => exact (dot_lhs_1 _ _).trans hk)
  have er : dot_S1024x512_S2048x512_S1024x2048_1_1_0_0_n_n.rhsIdx (ix2 r jj) ((ValueIdx.contrEquiv1 dot_S1024x512_S2048x512_S1024x2048_1_1_0_0_n_n 512 rfl rfl).symm k) = ix2 jj k := funext fun a => Fin.ext (by
    match a with
    | ⟨0, _⟩ => exact dot_rhs_0 _ _
    | ⟨1, _⟩ => exact (dot_rhs_1 _ _).trans hk)
  rw [el, er]

/-! ## One cell of the tile, and a row's new running sum -/

/-- One cell's contribution, from the cell's similarity `s` and the two labels `a` (the row's) and `b` (the
    column's): `1 - s` where the labels agree and `s < 1`, plus `s` where they differ and `s > 0.3`
    (the two literals are kept as their f32 words). -/
def cellK (s : EReal) (a b : BitVec 32) : EReal :=
  Scalar.select (IntOp.andi (IntOp.cmpi .eq a b) (Ideal.cmp .olt s (Ideal.ofBits .f32 0x3F800000#32)))
      (Ideal.ofBits .f32 0x3F800000#32 - s) 0
    + Scalar.select (IntOp.andi (IntOp.xori (IntOp.cmpi .eq a b) 1#1) (Ideal.cmp .ogt s (Ideal.ofBits .f32 0x3E99999A#32)))
      s 0

/-- The pointwise part of the body at an index is the cell function of the three arrays' entries there. -/
theorem cell_at (M : FVec Ideal S1024x2048 .f32) (A B : IVec S1024x2048 32) (i : S1024x2048.Idx) :
    addf (F := Ideal)
      (select (andi (cmpi .eq A B) (cmpf .olt M (broadcast S1024x2048 (Scalar.ofBits (F := Ideal) .f32 0x3F800000#32))))
        (subf (broadcast S1024x2048 (Scalar.ofBits (F := Ideal) .f32 0x3F800000#32)) M)
        (broadcast S1024x2048 (Scalar.ofBits (F := Ideal) .f32 0x00000000#32)))
      (select (andi (xori (cmpi .eq A B) (constantI S1024x2048 1 1#1)) (cmpf .ogt M (broadcast S1024x2048 (Scalar.ofBits (F := Ideal) .f32 0x3E99999A#32))))
        M
        (broadcast S1024x2048 (Scalar.ofBits (F := Ideal) .f32 0x00000000#32))) i
      = cellK (M i) (A i) (B i) := by
  show Scalar.select _ _ (Ideal.ofBits .f32 0x00000000#32) + Scalar.select _ _ (Ideal.ofBits .f32 0x00000000#32) = _
  rw [Ideal.ofBits_zero_f32]
  rfl

/-- The body's new running sum at row `r`: the old one plus the sum, over the tile's 2048 columns, of the cell
    function at the row's and the column's inner product and labels. -/
theorem pay3_apply (xr : Vec Ideal S1024x512 .bf16) (xc : Vec Ideal S2048x512 .bf16) (tr : Vec Ideal S1024x1 .i32)
    (tc : Vec Ideal S1x2048 .i32) (acc : Vec Ideal S1024x1 .f32) (r : Fin 1024) :
    Cert.KernelIdeal.Gen.k0_pay3 (F := Ideal) xr xc tr tc acc (ix2 r (0 : Fin 1))
      = acc (ix2 r (0 : Fin 1))
        + ∑ jj : Fin 2048, cellK (∑ k : Fin 512, xr (ix2 r k) * xc (ix2 jj k)) (tr (ix2 r (0 : Fin 1))) (tc (ix2 (0 : Fin 1) jj)) := by
  unfold Cert.KernelIdeal.Gen.k0_pay3
  rw [shapeCast_self xr, shapeCast_self xc, shapeCast_self tr, shapeCast_self tc]
  refine (addf_apply _ _ _).trans ?_
  refine congrArg (acc (ix2 r (0 : Fin 1)) + ·) ?_
  refine (cast_col _ _ r 0).trans ?_
  refine (lane_sum _ _ _ _ r).trans ?_
  refine Finset.sum_congr rfl fun jj _ => ?_
  refine (cell_at _ _ _ _).trans ?_
  exact congr (congr (congrArg cellK (tile_dot xr xc r jj)) (bcast_col tr _ r jj)) (broadcastTo_1b_ab_apply tc _ r jj)

end Cert.TileSum

end
-- ==== Proof.RefLoss.lean ====
/-
  The reference loss as plain sums.

  For an array x of 8192 rows of 512 extended reals and 8192 labels t (32-bit words), the reference
  computes the Gram matrix sim i j = ∑ k, x i k * x j k, and for every row i two row sums over j:
  over the pairs with equal labels and sim i j below the literal 1.0 it adds 1.0 - sim i j, over the
  pairs with different labels and sim i j above the literal 0.3 it adds sim i j. The result is the
  sum over i of (first row sum + second row sum), divided by the literal 8192.0.

  This module states that reading as definitions over Finset sums (sim, posCell, negCell, refLoss)
  and proves that the reference program's composed term is the constant function refLoss x t.
  Float literals stay as the words they are printed with; only the zero word is read as 0.
-/
import proofs.«178130_j58858231824724_2_alg».proof.Proof.Gen.ReferenceIdeal.Read
import Idealize.ShloMosaic.Lib.ValueIdx
import Idealize.ShloMosaic.PureOps.Ideal.Laws
import Idealize.ShloMosaic.Lib.Pipeline.Value

noncomputable section

open scoped BigOperators

namespace Cert.RefLoss

open Cert.ReferenceIdeal Cert.ReferenceIdeal.Gen Cert.ReferenceIdeal.Read
open Idealize.ShloMosaic Idealize.ShloMosaic.ValueIdx

/-! ## The specification -/

/-- The Gram matrix entry: the inner product of rows i and j. -/
def sim (x : FVec Ideal S8192x512 .f32) (i j : Fin 8192) : EReal :=
  ∑ k : Fin 512, x (ix2 i k) * x (ix2 j k)

/-- The contribution of a pair with similarity s and labels a, b to the first row sum: 1.0 - s when
    the labels are equal and s is below 1.0, else 0. -/
def posCell (s : EReal) (a b : BitVec 32) : EReal :=
  Scalar.select (IntOp.andi (IntOp.cmpi .eq a b) (Ideal.cmp .olt s (Ideal.ofBits .f32 0x3F800000#32)))
    (Ideal.ofBits .f32 0x3F800000#32 - s) 0

/-- The contribution of a pair to the second row sum: s when the labels differ and s is above 0.3, else 0. -/
def negCell (s : EReal) (a b : BitVec 32) : EReal :=
  Scalar.select (IntOp.andi (~~~(IntOp.cmpi .eq a b)) (Ideal.cmp .ogt s (Ideal.ofBits .f32 0x3E99999A#32)))
    s 0

/-- The two row sums of row i, added. -/
def rowLoss (x : FVec Ideal S8192x512 .f32) (t : IVec S8192 32) (i : Fin 8192) : EReal :=
  (∑ j : Fin 8192, posCell (sim x i j) (t (ix1 i)) (t (ix1 j)))
    + (∑ j : Fin 8192, negCell (sim x i j) (t (ix1 i)) (t (ix1 j)))

/-- The reference's result: the sum of the rows' losses divided by the literal 8192.0. -/
def refLoss (x : FVec Ideal S8192x512 .f32) (t : IVec S8192 32) : EReal :=
  Ideal.div (∑ i : Fin 8192, rowLoss x t i) (Ideal.ofBits .f32 0x46000000#32)

/-! ## The reference's stages at coordinates -/

/-- The dot_general stage at (i, j) is the Gram entry. -/
theorem v1_eq (x : FVec Ideal S8192x512 .f32) (i j : Fin 8192) :
    val_main_v1 (F := Ideal) x (ix2 i j) = sim x i j := by
  rw [val_main_v1_apply]
  unfold sim
  refine Finset.sum_congr rfl fun k _ => ?_
  rw [val_main_v0_apply]
  have e1 : lidx_main_v1 (ix2 i j) k = ix2 i k :=
    funext fun a => Fin.ext (by match a with | ⟨0, _⟩ => rfl | ⟨1, _⟩ => rfl)
  have e2 : idx_main_v0 (ridx_main_v1 (ix2 i j) k) = ix2 j k :=
    funext fun a => Fin.ext (by match a with | ⟨0, _⟩ => rfl | ⟨1, _⟩ => rfl)
  rw [e1, e2]

theorem v16_eq (x : FVec Ideal S8192x512 .f32) (t : IVec S8192 32) (i j : Fin 8192) :
    val_main_v16 (F := Ideal) x t (ix2 i j) = posCell (sim x i j) (t (ix1 i)) (t (ix1 j)) := by
  have e1 : idx_main_v2 (idx_main_v4 (ix2 i j)) = ix1 i :=
    funext fun a => Fin.ext (by match a with | ⟨0, _⟩ => rfl)
  have e2 : idx_main_v3 (idx_main_v5 (ix2 i j)) = ix1 j :=
    funext fun a => Fin.ext (by match a with | ⟨0, _⟩ => rfl)
  rw [val_main_v16_apply, val_main_v9_apply, val_main_v6_apply, val_main_v8_apply, val_main_v15_apply,
    val_main_v4_apply, val_main_v5_apply, val_main_v2_apply, val_main_v3_apply, val_main_v7_apply,
    val_main_v14_apply, val_main_call0_v1_apply, val_main_call0_v0_apply, val_main_cst_apply,
    val_main_cst_1_apply, val_main_cst_2_apply, v1_eq, e1, e2]
  simp only [Ideal.cmpf_def, Ideal.subf_def, Ideal.ofBits_def, Ideal.ofBits_zero_f32]
  rfl

theorem v18_eq (x : FVec Ideal S8192x512 .f32) (t : IVec S8192 32) (i j : Fin 8192) :
    val_main_v18 (F := Ideal) x t (ix2 i j) = negCell (sim x i j) (t (ix1 i)) (t (ix1 j)) := by
  have e1 : idx_main_v2 (idx_main_v4 (ix2 i j)) = ix1 i :=
    funext fun a => Fin.ext (by match a with | ⟨0, _⟩ => rfl)
  have e2 : idx_main_v3 (idx_main_v5 (ix2 i j)) = ix1 j :=
    funext fun a => Fin.ext (by match a with | ⟨0, _⟩ => rfl)
  rw [val_main_v18_apply, val_main_v13_apply, val_main_v10_apply, val_main_v6_apply, val_main_v12_apply,
    val_main_v4_apply, val_main_v5_apply, val_main_v2_apply, val_main_v3_apply, val_main_v11_apply,
    val_main_call1_v1_apply, val_main_call1_v0_apply, val_main_cst_0_apply,
    val_main_cst_4_apply, v1_eq, e1, e2]
  simp only [Ideal.cmpf_def, Ideal.ofBits_def, Ideal.ofBits_zero_f32]
  rfl

/-- The added row sums at row i. -/
theorem v20_eq (x : FVec Ideal S8192x512 .f32) (t : IVec S8192 32) (i : Fin 8192) :
    val_main_v20 (F := Ideal) x t (ix1 i) = rowLoss x t i := by
  have e17 : ∀ k : Fin 8192, idx_main_v17 (ix1 i) k = ix2 i k := fun k =>
    funext fun a => Fin.ext (by match a with | ⟨0, _⟩ => rfl | ⟨1, _⟩ => rfl)
  have e19 : ∀ k : Fin 8192, idx_main_v19 (ix1 i) k = ix2 i k := fun k =>
    funext fun a => Fin.ext (by match a with | ⟨0, _⟩ => rfl | ⟨1, _⟩ => rfl)
  rw [val_main_v20_apply, val_main_v17_apply, val_main_v19_apply, val_main_cst_3_apply, val_main_cst_5_apply]
  simp only [e17, e19, v16_eq, v18_eq, Ideal.addf_def, Ideal.ofBits_def, Ideal.ofBits_zero_f32, zero_add]
  rfl

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-! ## The reference is refLoss -/

/-- The last stage is the constant function refLoss x t. -/
theorem ref_val_eq (x : FVec Ideal S8192x512 .f32) (t : IVec S8192 32) :
    val_main_v22 (F := Ideal) x t = fun _ => refLoss x t := by
  funext i0
  rw [val_main_v22_apply, val_main_v21_apply, val_main_cst_7_apply, val_main_cst_6_apply, sum_idx1]
  simp only [v20_eq, Ideal.hostDivf_def, Ideal.ofBits_def, Ideal.ofBits_zero_f32, zero_add]
  rfl

/-- The reference program's composed term (the one its run is stated with), over the argument arrays x and t,
    is the constant function refLoss x t. -/
theorem ref_eq (x : FVec Ideal S8192x512 .f32) (t : IVec S8192 32) :
    Host.divf (F := Ideal) (Host.reduceAdd (F := Ideal) (addf (Host.reduceAdd (F := Ideal) (select (andi (cmpi .eq (broadcastInDim S8192x8192 ![0, 1] bcast_S8192x1_S8192x8192_0_1 (broadcastInDim S8192x1 ![0] bcast_S8192_S8192x1_0 t)) (broadcastInDim S8192x8192 ![0, 1] bcast_S1x8192_S8192x8192_0_1 (broadcastInDim S1x8192 ![1] bcast_S8192_S1x8192_1 t))) (cmpf .olt (Host.dotGeneral (F := Ideal) dot_S8192x512_S512x8192_S8192x8192_1_0_0_1_n_n none x (transpose S512x8192 [1, 0] x transposes_S8192x512_S512x8192_1_0)) (broadcastInDim S8192x8192 ![] bcast_S_S8192x8192 (constant (F := Ideal) S_ .f32 0x3F800000#32)))) (subf (broadcastInDim S8192x8192 ![] bcast_S_S8192x8192 (constant (F := Ideal) S_ .f32 0x3F800000#32)) (Host.dotGeneral (F := Ideal) dot_S8192x512_S512x8192_S8192x8192_1_0_0_1_n_n none x (transpose S512x8192 [1, 0] x transposes_S8192x512_S512x8192_1_0))) (broadcastInDim S8192x8192 ![] bcast_S_S8192x8192 (id (constant (F := Ideal) S_ .f32 0x00000000#32)))) (constant (F := Ideal) S_ .f32 0x00000000#32) reducesTo_S8192x8192_S8192_d1 h_S_) (Host.reduceAdd (F := Ideal) (select (andi (noti (cmpi .eq (broadcastInDim S8192x8192 ![0, 1] bcast_S8192x1_S8192x8192_0_1 (broadcastInDim S8192x1 ![0] bcast_S8192_S8192x1_0 t)) (broadcastInDim S8192x8192 ![0, 1] bcast_S1x8192_S8192x8192_0_1 (broadcastInDim S1x8192 ![1] bcast_S8192_S1x8192_1 t)))) (cmpf .ogt (Host.dotGeneral (F := Ideal) dot_S8192x512_S512x8192_S8192x8192_1_0_0_1_n_n none x (transpose S512x8192 [1, 0] x transposes_S8192x512_S512x8192_1_0)) (broadcastInDim S8192x8192 ![] bcast_S_S8192x8192 (constant (F := Ideal) S_ .f32 0x3E99999A#32)))) (Host.dotGeneral (F := Ideal) dot_S8192x512_S512x8192_S8192x8192_1_0_0_1_n_n none x (transpose S512x8192 [1, 0] x transposes_S8192x512_S512x8192_1_0)) (broadcastInDim S8192x8192 ![] bcast_S_S8192x8192 (id (constant (F := Ideal) S_ .f32 0x00000000#32)))) (constant (F := Ideal) S_ .f32 0x00000000#32) reducesTo_S8192x8192_S8192_d1 h_S_)) (constant (F := Ideal) S_ .f32 0x00000000#32) reducesTo_S8192_S_d0 h_S_) (constant (F := Ideal) S_ .f32 0x46000000#32)
      = fun _ => refLoss x t :=
  (val_main_v22_eq (F := Ideal) x t).trans (ref_val_eq x t)

/-! ## The cells by cases -/

/-- The first cell as a case distinction on the labels and the order. -/
theorem posCell_eq (s : EReal) (a b : BitVec 32) :
    posCell s a b = if a = b ∧ s < Ideal.ofBits .f32 0x3F800000#32 then Ideal.ofBits .f32 0x3F800000#32 - s else 0 := by
  unfold posCell
  generalize Ideal.ofBits .f32 0x3F800000#32 = c
  by_cases h1 : a = b
  · subst h1
    by_cases h2 : s < c <;> simp [Scalar.select, IntOp.andi, IntOp.cmpi, Ideal.cmp, h2]
  · have hb : (a == b) = false := beq_eq_false_iff_ne.mpr h1
    simp [Scalar.select, IntOp.andi, IntOp.cmpi, Ideal.cmp, h1, hb]

/-- The second cell as a case distinction on the labels and the order. -/
theorem negCell_eq (s : EReal) (a b : BitVec 32) :
    negCell s a b = if a ≠ b ∧ Ideal.ofBits .f32 0x3E99999A#32 < s then s else 0 := by
  unfold negCell
  generalize Ideal.ofBits .f32 0x3E99999A#32 = c
  by_cases h1 : a = b
  · subst h1
    simp [Scalar.select, IntOp.andi, IntOp.cmpi, Ideal.cmp]
  · have hb : (a == b) = false := beq_eq_false_iff_ne.mpr h1
    by_cases h2 : c < s <;> simp [Scalar.select, IntOp.andi, IntOp.cmpi, Ideal.cmp, h1, hb, h2]

end Cert.RefLoss

end
-- ==== Proof.CellLaw.lean ====
/-
  The tiled program's cell is the sum of the reference's two cells.

  For a similarity s and labels a, b the tiled program adds, in one term, 1.0 - s where the labels agree
  and s is below 1.0 and s where the labels differ and s is above 0.3; it writes "the labels differ" as
  the exclusive or of the equality bit with the set bit, which on one bit is the complement. So its cell
  is the reference's first cell plus the reference's second cell, and a row's sum of cells over the 8192
  columns is the reference's two row sums added.
-/
import proofs.«178130_j58858231824724_2_alg».proof.Proof.RefLoss
import proofs.«178130_j58858231824724_2_alg».proof.Proof.TileSum

noncomputable section

open scoped BigOperators

namespace Cert.SumLaws

open Idealize.ShloMosaic Idealize.ShloMosaic.ValueIdx

/-- On one bit, exclusive or with the set bit is the complement. -/
theorem xori_one (c : BitVec 1) : IntOp.xori c 1#1 = ~~~c := by
  rcases BitVec.eq_zero_or_eq_one c with rfl | rfl <;> decide

/-- The tiled program's cell is the reference's first cell plus its second cell. -/
theorem cellK_eq (s : EReal) (a b : BitVec 32) :
    Cert.TileSum.cellK s a b = Cert.RefLoss.posCell s a b + Cert.RefLoss.negCell s a b := by
  unfold Cert.TileSum.cellK Cert.RefLoss.posCell Cert.RefLoss.negCell
  rw [xori_one]

/-- A row's sum of cells over all columns is the reference's two row sums, added. -/
theorem row_cellK (x : FVec Ideal Cert.ReferenceIdeal.S8192x512 .f32) (t : IVec Cert.ReferenceIdeal.S8192 32)
    (i : Fin 8192) :
    ∑ j : Fin 8192, Cert.TileSum.cellK (Cert.RefLoss.sim x i j) (t (ix1 i)) (t (ix1 j))
      = Cert.RefLoss.rowLoss x t i := by
  simp only [cellK_eq]
  rw [Finset.sum_add_distrib]
  rfl

end Cert.SumLaws

end
-- ==== Proof.SumLaws.lean ====
/-
  Sum laws for the tiled loss.

  (a) The last host lines of the tiled program: the sum over both axes of an [8192, 1] array from a zero
      initial value, divided by the literal 8192.0, is the sum over the 8192 rows divided by that literal
      (the second axis has one coordinate).
  (b) A sum over 8192 columns is the sum of its four tiles of 2048 columns, added from the left in the
      order tile 0, 1, 2, 3; a sum over 8192 rows is the double sum over 8 blocks of 1024 rows.
-/
import proofs.«178130_j58858231824724_2_alg».proof.Proof.Gen.KernelIdeal
import Idealize.ShloMosaic.Lib.ValueIdx
import Idealize.ShloMosaic.PureOps.Ideal.Laws

noncomputable section

open scoped BigOperators

namespace Cert.SumLaws

open Idealize.ShloMosaic Idealize.ShloMosaic.ValueIdx

/-! ## (a) The host tail -/

/-- The sum over both axes of an [8192, 1] array from the zero word, divided by the 8192.0 word, is the
    sum over the rows divided by that word. -/
theorem host_tail (Y : FVec Ideal Cert.KernelIdeal.S8192x1 .f32) :
    Host.divf (F := Ideal)
        (Host.reduceAdd (F := Ideal) Y (constant (F := Ideal) Cert.KernelIdeal.S_ .f32 0x00000000#32)
          Cert.KernelIdeal.Facts₀.reducesTo_S8192x1_S_d0_1 Cert.KernelIdeal.Facts₀.h_S_)
        (constant (F := Ideal) Cert.KernelIdeal.S_ .f32 0x46000000#32)
      = fun _ => Ideal.div (∑ i : Fin 8192, Y (ix2 i 0)) (Ideal.ofBits .f32 0x46000000#32) := by
  funext i0
  show FloatOps.hostDivf
      (Host.reduceAdd (F := Ideal) Y (constant (F := Ideal) Cert.KernelIdeal.S_ .f32 0x00000000#32)
        Cert.KernelIdeal.Facts₀.reducesTo_S8192x1_S_d0_1 Cert.KernelIdeal.Facts₀.h_S_ i0)
      (constant (F := Ideal) Cert.KernelIdeal.S_ .f32 0x46000000#32 i0) = _
  simp only [Host.reduceAdd, Ideal.hostReduceAdd_def]
  rw [Ideal.hostReduceAdd_total Cert.KernelIdeal.Facts₀.reducesTo_S8192x1_S_d0_1 (fun b => b.elim0) Y _ i0,
    constant_apply, constant_apply, Ideal.ofBits_zero_f32, zero_add, Ideal.hostDivf_def, sum_idx2]
  simp only [Fin.sum_univ_one]

/-! ## (b) Tiles -/

/-- A sum over m * n indices is the double sum over m blocks of n consecutive indices. -/
theorem sum_blocks {M : Type*} [AddCommMonoid M] {N : Nat} (m n : Nat) (h : m * n = N) (g : Fin N → M) :
    ∑ j : Fin N, g j = ∑ c : Fin m, ∑ a : Fin n, g ⟨n * c.val + a.val, by
      subst h
      calc n * c.val + a.val < n * c.val + n := by have := a.isLt; omega
        _ = n * (c.val + 1) := by ring
        _ ≤ n * m := Nat.mul_le_mul_left _ c.isLt
        _ = m * n := Nat.mul_comm _ _⟩ := by
  subst h
  rw [← Equiv.sum_comp finProdFinEquiv g, Fintype.sum_prod_type]
  refine Finset.sum_congr rfl fun c _ => Finset.sum_congr rfl fun a _ => congrArg g (Fin.ext ?_)
  simp [finProdFinEquiv, Nat.add_comm]

/-- 8192 rows are 8 blocks of 1024 rows: block I holds the rows 1024 * I + r. -/
theorem sum_row_blocks {M : Type*} [AddCommMonoid M] (h : Fin 8192 → M) :
    ∑ i : Fin 8192, h i = ∑ I : Fin 8, ∑ r : Fin 1024, h ⟨1024 * I.val + r.val, by
      have := I.isLt; have := r.isLt; omega⟩ :=
  sum_blocks 8 1024 rfl h

/-- 8192 columns are four tiles of 2048 columns, added from the left, tile 0 first. -/
theorem sum_col_tiles {M : Type*} [AddCommMonoid M] (g : Fin 8192 → M) :
    ∑ j : Fin 8192, g j
      = (((∑ a : Fin 2048, g ⟨a.val, by have := a.isLt; omega⟩)
          + ∑ a : Fin 2048, g ⟨2048 + a.val, by have := a.isLt; omega⟩)
          + ∑ a : Fin 2048, g ⟨4096 + a.val, by have := a.isLt; omega⟩)
          + ∑ a : Fin 2048, g ⟨6144 + a.val, by have := a.isLt; omega⟩ := by
  rw [sum_blocks 4 2048 rfl g, Fin.sum_univ_four]
  refine congrArg₂ (· + ·) (congrArg₂ (· + ·) (congrArg₂ (· + ·) ?_ ?_) ?_) ?_ <;>
    exact Finset.sum_congr rfl fun a _ => congrArg g (Fin.ext (by simp))

/-- The same from an accumulator that starts at zero. -/
theorem sum_col_tiles_zero {M : Type*} [AddCommMonoid M] (g : Fin 8192 → M) :
    ∑ j : Fin 8192, g j
      = (((0 + ∑ a : Fin 2048, g ⟨a.val, by have := a.isLt; omega⟩)
          + ∑ a : Fin 2048, g ⟨2048 + a.val, by have := a.isLt; omega⟩)
          + ∑ a : Fin 2048, g ⟨4096 + a.val, by have := a.isLt; omega⟩)
          + ∑ a : Fin 2048, g ⟨6144 + a.val, by have := a.isLt; omega⟩ := by
  rw [zero_add]
  exact sum_col_tiles g

end Cert.SumLaws

end
-- ==== Proof.KI.Accum.lean ====
/-
  The accumulation. At a grid point t (row tile t / 4, column tile t % 4) the body adds, to each row's running
  sum, the sum over the column tile's 2048 columns of the cell function at the row's and the column's inner
  product and labels; it restarts the running sum from zero at the first column tile and stores it into the
  output block at the last. So after column tile J a row's running sum is tiles 0 .. J of the row's cells added
  from the left from zero, at the last tile that is the sum over all 8192 columns, which is the row's loss; and
  the output column, whose eight blocks are each written back once, ends holding every row's loss.
-/
import proofs.«178130_j58858231824724_2_alg».proof.Proof.KI.Frame
import proofs.«178130_j58858231824724_2_alg».proof.Proof.KI.Blocks
import proofs.«178130_j58858231824724_2_alg».proof.Proof.KI.Pieces
import proofs.«178130_j58858231824724_2_alg».proof.Proof.TileSum
import proofs.«178130_j58858231824724_2_alg».proof.Proof.CellLaw
import proofs.«178130_j58858231824724_2_alg».proof.Proof.SumLaws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The row's cells, a tile's sum, the partial sums -/

/-- The inputs, as the array of 8192 rows of 512 exact values. -/
abbrev xin (c : Dev nD) : FVec Ideal Cert.ReferenceIdeal.S8192x512 .f32 := m ((c : Thread nD τ).loc main_arg0)
/-- The labels. -/
abbrev labin (c : Dev nD) : IVec Cert.ReferenceIdeal.S8192 32 := m ((c : Thread nD τ).loc main_arg1)

/-- The cell of row `i` and column `j`: the cell function at their inner product and labels. -/
def pairCell (x : FVec Ideal Cert.ReferenceIdeal.S8192x512 .f32) (lab : IVec Cert.ReferenceIdeal.S8192 32) (i j : Fin 8192) : EReal :=
  Cert.TileSum.cellK (Cert.RefLoss.sim x i j) (lab (ix1 i)) (lab (ix1 j))

/-- The sum of a row function over column tile `J`: the columns `2048 J .. 2048 J + 2047`. -/
def tileSum (g : Fin 8192 → EReal) (J : ℕ) (hJ : J < 4) : EReal :=
  ∑ a : Fin 2048, g ⟨2048 * J + a.val, by have := a.isLt; omega⟩

/-- The tiles `0 .. J` added from the left, starting from zero: what the accumulator holds after column step `J`. -/
def partSum (g : Fin 8192 → EReal) : (J : ℕ) → J < 4 → EReal
  | 0, h => 0 + tileSum g 0 h
  | J + 1, h => partSum g J (Nat.lt_of_succ_lt h) + tileSum g (J + 1) h

theorem partSum_zero' (g : Fin 8192 → EReal) (j : ℕ) (hj : j < 4) (e : j = 0) : partSum g j hj = 0 + tileSum g j hj := by
  subst e; rfl
theorem partSum_succ' (g : Fin 8192 → EReal) (j k : ℕ) (hj : j < 4) (hk : k < 4) (e : k = j + 1) :
    partSum g k hk = partSum g j hj + tileSum g k hk := by
  subst e; rfl

/-- All four tiles are the whole row. -/
theorem partSum_three (g : Fin 8192 → EReal) (h : 3 < 4) : partSum g 3 h = ∑ j : Fin 8192, g j := by
  rw [Cert.SumLaws.sum_col_tiles_zero g]
  show (((0 + tileSum g 0 _) + tileSum g 1 _) + tileSum g 2 _) + tileSum g 3 _ = _
  unfold tileSum
  refine congrArg₂ (· + ·) (congrArg₂ (· + ·) (congrArg₂ (· + ·) (congrArg (0 + ·) ?_) ?_) ?_) ?_ <;>
    exact Finset.sum_congr rfl fun a _ => congrArg g (Fin.ext (by simp))

/-! ## One column step -/

/-- The body's step from an accumulator `acc`, at row `r` of the block of point `t`: the column tile of `t` is added. -/
theorem step_apply (c : Dev nD) (t : Fin cfg0.N) (acc : Vec Ideal S1024x1 .f32) (r : Fin 1024) :
    k0_pay1 (F := Ideal) (k0_pay3 (F := Ideal) (iblk m c 0 t) (iblk m c 1 t) (iblk m c 2 t) (iblk m c 3 t) acc) (ix2 r (0 : Fin 1))
      = acc (ix2 r (0 : Fin 1))
        + tileSum (pairCell (xin m c) (labin m c) (rowOf t r)) (t.val % 4) (Nat.mod_lt _ (by decide)) := by
  rw [Cert.TileSum.pay1_eq, Cert.TileSum.pay3_apply]
  refine congrArg (acc (ix2 r (0 : Fin 1)) + ·) ?_
  unfold tileSum
  refine Finset.sum_congr rfl fun jj _ => ?_
  unfold pairCell
  refine congr (congr (congrArg Cert.TileSum.cellK ?_) (iblk2_apply m c t r)) (iblk3_apply m c t jj)
  unfold Cert.RefLoss.sim
  exact Finset.sum_congr rfl fun k _ => congrArg₂ (fun a b : EReal => a * b) (iblk0_apply m c t r k) (iblk1_apply m c t jj k)

theorem partSum_congr (g : Fin 8192 → EReal) (j k : ℕ) (hj : j < 4) (hk : k < 4) (e : j = k) : partSum g j hj = partSum g k hk := by
  subst e; rfl

/-! ## The accumulator and the output block, point by point -/

theorem snd_of_eq {α β : Type} {p : α × β} {a : α} {b : β} (h : p = (a, b)) : p.2 = b := by rw [h]
theorem fst_of_eq {α β : Type} {p : α × β} {a : α} {b : β} (h : p = (a, b)) : p.1 = a := by rw [h]

/-- Where the column tile is the first, the accumulator restarts from the zero block. -/
theorem acc_first (c : Dev nD) (t : Fin cfg0.N) (h0 : t.val % 4 = 0) (r : Fin 1024) :
    (outsAt0 m c t.val t.isLt).2 (ix2 r (0 : Fin 1))
      = 0 + tileSum (pairCell (xin m c) (labin m c) (rowOf t r)) (t.val % 4) (Nat.mod_lt _ (by decide)) := by
  have h1 : ¬t.val % 4 = 3 := by omega
  rw [snd_of_eq (outsAt0_A m c t h0 h1), sout0_A_0_eq, step_apply, Cert.TileSum.pay2_apply]

/-- Elsewhere it continues from what the point before left. -/
theorem acc_next (c : Dev nD) (t : Fin cfg0.N) (h0 : ¬t.val % 4 = 0) (r : Fin 1024) :
    (outsAt0 m c t.val t.isLt).2 (ix2 r (0 : Fin 1))
      = (outsAt0 m c (t.val - 1) (Nat.lt_of_le_of_lt (Nat.sub_le _ _) t.isLt)).2 (ix2 r (0 : Fin 1))
        + tileSum (pairCell (xin m c) (labin m c) (rowOf t r)) (t.val % 4) (Nat.mod_lt _ (by decide)) := by
  by_cases h1 : t.val % 4 = 3
  · rw [snd_of_eq (outsAt0_C m c t h0 h1), sout0_C_0_eq, step_apply]
  · rw [snd_of_eq (outsAt0_B m c t h0 h1), sout0_B_0_eq, step_apply]

/-- Where the column tile is the last, the output block is stored with the same sum. -/
theorem out_last (c : Dev nD) (t : Fin cfg0.N) (h1 : t.val % 4 = 3) (r : Fin 1024) :
    (outsAt0 m c t.val t.isLt).1 (ix2 r (0 : Fin 1))
      = (outsAt0 m c (t.val - 1) (Nat.lt_of_le_of_lt (Nat.sub_le _ _) t.isLt)).2 (ix2 r (0 : Fin 1))
        + tileSum (pairCell (xin m c) (labin m c) (rowOf t r)) (t.val % 4) (Nat.mod_lt _ (by decide)) := by
  have h0 : ¬t.val % 4 = 0 := by omega
  rw [fst_of_eq (outsAt0_C m c t h0 h1), out0_C_4_eq, step_apply]

/-- Within a row tile the rows do not move: the point before `t` has the same row tile unless `t` starts one. -/
theorem rowOf_pred (t : Fin cfg0.N) (h0 : ¬t.val % 4 = 0) (r : Fin 1024) :
    rowOf ⟨t.val - 1, Nat.lt_of_le_of_lt (Nat.sub_le _ _) t.isLt⟩ r = rowOf t r :=
  Fin.ext (by show 1024 * ((t.val - 1) / 4) + r.val = 1024 * (t.val / 4) + r.val; omega)

/-- (1) THE ACCUMULATOR after point `n`, at row `r`: the column tiles `0 .. n % 4` of the row's cells, added from the left
    from zero. -/
theorem acc_apply (c : Dev nD) : ∀ (n : ℕ) (hn : n < cfg0.N) (r : Fin 1024),
    (outsAt0 m c n hn).2 (ix2 r (0 : Fin 1))
      = partSum (pairCell (xin m c) (labin m c) (rowOf ⟨n, hn⟩ r)) (n % 4) (Nat.mod_lt _ (by decide)) := by
  intro n
  induction n with
  | zero =>
    intro hn r
    refine (acc_first m c ⟨0, hn⟩ rfl r).trans ?_
    exact (partSum_zero' _ _ _ rfl).symm
  | succ n ih =>
    intro hn r
    by_cases h0 : (n + 1) % 4 = 0
    · refine (acc_first m c ⟨n + 1, hn⟩ h0 r).trans ?_
      exact (partSum_zero' _ _ _ h0).symm
    · refine (acc_next m c ⟨n + 1, hn⟩ h0 r).trans ?_
      have hp : (outsAt0 m c ((⟨n + 1, hn⟩ : Fin cfg0.N).val - 1) (Nat.lt_of_le_of_lt (Nat.sub_le _ _) hn)).2 (ix2 r (0 : Fin 1))
          = partSum (pairCell (xin m c) (labin m c) (rowOf ⟨n + 1, hn⟩ r)) (n % 4) (Nat.mod_lt _ (by decide)) := by
        refine (ih (Nat.lt_of_succ_lt hn) r).trans ?_
        exact congrArg (fun i => partSum (pairCell (xin m c) (labin m c) i) (n % 4) (Nat.mod_lt _ (by decide)))
          (rowOf_pred ⟨n + 1, hn⟩ h0 r)
      rw [hp]
      exact (partSum_succ' _ (n % 4) ((n + 1) % 4) _ _ (by omega)).symm

/-- (2) THE OUTPUT BLOCK at a point with the last column tile, at row `r`: the row's loss. -/
theorem out_apply (c : Dev nD) (t : Fin cfg0.N) (h1 : t.val % 4 = 3) (r : Fin 1024) :
    (outsAt0 m c t.val t.isLt).1 (ix2 r (0 : Fin 1)) = Cert.RefLoss.rowLoss (xin m c) (labin m c) (rowOf t r) := by
  refine (out_last m c t h1 r).trans ?_
  rw [acc_apply m c (t.val - 1) _ r, rowOf_pred t (by omega) r]
  refine ((partSum_succ' _ ((t.val - 1) % 4) (t.val % 4) _ _ (by omega)).symm).trans ?_
  refine (partSum_congr _ _ 3 _ (by decide) h1).trans ?_
  rw [partSum_three]
  exact Cert.SumLaws.row_cellK (xin m c) (labin m c) (rowOf t r)

/-! ## The output array after the run -/

/-- (3) THE FINAL ARRAY: the output column ends holding, at every row, the row's loss. Each row tile's block is written
    back once, by the tile's last column step, with the rows' losses; the eight blocks cover the column. -/
theorem final4 (c : Dev nD) :
    (dats m 0 c).arrAt 4 cfg0.N
      = fun i : S8192x1.Idx => Cert.RefLoss.rowLoss (xin m c) (labin m c) (i 0) := by
  refine (dats m 0 c).arrAt_eq_of_cover 4
    (fun i : S8192x1.Idx => Cert.RefLoss.rowLoss (xin m c) (labin m c) (i 0)) (fun t hf => ?_) cover4
  have h1 : t.val % 4 = 3 := (flush0_4 t).mp hf
  show (cfg0.win 4).cut (grid0.coords t) ((dats m 0 c).after 4 t) = _
  rw [after0_4]
  funext j
  obtain ⟨r, q, rfl⟩ : ∃ (r : Fin 1024) (q : Fin 1), j = ix2 r q := ⟨j 0, j 1, eq_ix2 j⟩
  obtain rfl : q = 0 := Subsingleton.elim q 0
  refine Eq.trans ?_ (read_blk4 _ t r).symm
  exact out_apply m c t h1 r

end Cert.KernelIdeal.Hand

end
-- ==== Proof.KI.Result.lean ====
/-
  The result buffer ends at the reference loss.

  The four host lines after the region write a zero, the sum over both axes of the [8192, 1] array of row
  losses, the literal 8192.0 and their quotient. So the result buffer ends at that quotient of the final
  array of row losses; and once every row's entry of that array is the reference's row loss of the two
  argument arrays, the result is the reference's loss of them.
-/
import proofs.«178130_j58858231824724_2_alg».proof.Proof.KI.Tail
import proofs.«178130_j58858231824724_2_alg».proof.Proof.SumLaws
import proofs.«178130_j58858231824724_2_alg».proof.Proof.RefLoss
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

/-- The result buffer after the four host lines: the sum over both axes of the final array of row losses from
    the zero word, divided by the 8192.0 word. For any float instance. -/
theorem W2_v5 {F : FTy → Type} [FloatOps F] (m : (ℓ : Loc nD τ sig) → Buf (Elt F) ℓ) (c : Dev nD) :
    W2 m c (Proc.devRef .tc main_v5)
      = Host.divf (F := F)
          (Host.reduceAdd (F := F) ((dats m 0 c).arrAt 4 cfg0.N) (constant (F := F) S_ .f32 0x00000000#32)
            Cert.KernelIdeal.Facts₀.reducesTo_S8192x1_S_d0_1 Cert.KernelIdeal.Facts₀.h_S_)
          (constant (F := F) S_ .f32 0x46000000#32) := by
  unfold W2
  simp only [List.flatten_cons, List.flatten_nil, List.append_nil]
  after_results
  rw [W1_v3]

variable (m : (ℓ : Loc nD τ sig) → Buf (Elt Ideal) ℓ)

/-- The first argument array at launch, as the array of 8192 rows of 512 extended reals the loss is stated over. -/
abbrev argX (c : Dev nD) : FVec Ideal Cert.ReferenceIdeal.S8192x512 .f32 := m ((c : Thread nD τ).loc main_arg0)
/-- The second argument array at launch, as the 8192 labels. -/
abbrev argT (c : Dev nD) : IVec Cert.ReferenceIdeal.S8192 32 := m ((c : Thread nD τ).loc main_arg1)
/-- The final array of row losses, as an [8192, 1] array of extended reals. -/
abbrev rowsOut (c : Dev nD) : FVec Ideal S8192x1 .f32 := (dats m 0 c).arrAt 4 cfg0.N

/-- The result is the sum of the final array's 8192 rows divided by the 8192.0 word. -/
theorem W2_v5_sum (c : Dev nD) :
    W2 m c (Proc.devRef .tc main_v5)
      = fun _ => Ideal.div (∑ i : Fin 8192, rowsOut m c (ValueIdx.ix2 i 0)) (Ideal.ofBits .f32 0x46000000#32) :=
  (W2_v5 m c).trans (Cert.SumLaws.host_tail (rowsOut m c))

/-- Once every row's entry of the final array is the reference's row loss, the result is the reference's loss. -/
theorem result_eq (c : Dev nD)
    (hfin : ∀ i : Fin 8192, rowsOut m c (ValueIdx.ix2 i 0) = Cert.RefLoss.rowLoss (argX m c) (argT m c) i) :
    W2 m c (Proc.devRef .tc main_v5) = fun _ => Cert.RefLoss.refLoss (argX m c) (argT m c) := by
  have hsum : (∑ i : Fin 8192, rowsOut m c (ValueIdx.ix2 i 0))
      = ∑ i : Fin 8192, Cert.RefLoss.rowLoss (argX m c) (argT m c) i :=
    Finset.sum_congr rfl fun i _ => hfin i
  refine (W2_v5_sum m c).trans ?_
  rw [hsum]
  rfl

/-- The same from the final array given as one function of the index. -/
theorem result_eq_of_fun (c : Dev nD)
    (hfin : rowsOut m c = fun i => Cert.RefLoss.rowLoss (argX m c) (argT m c) (i 0)) :
    W2 m c (Proc.devRef .tc main_v5) = fun _ => Cert.RefLoss.refLoss (argX m c) (argT m c) :=
  result_eq m c fun i => congrFun hfin (ValueIdx.ix2 i 0)

end Cert.KernelIdeal.Hand

end
-- ==== Proof.lean ====
/-
  The kernel computes, for 8192 inputs x_i in R^512 with integer labels t_i, the mean over i of the row losses
      L_i = sum over j of [ (t_i = t_j and s_ij < 1) ? 1 - s_ij : 0 ] + [ (t_i ≠ t_j and s_ij > 0.3) ? s_ij : 0 ],   s_ij = <x_i, x_j>,
  on an 8 x 4 grid: point (I, J) forms the 1024 x 2048 tile of similarities of row tile I against column tile J, adds each
  row's sum of the two masked terms to an accumulator kept across J, and at J = 3 writes the accumulator to rows
  1024 I … of the array of row losses; the host then sums that array and divides by 8192. The reference forms the
  whole 8192 x 8192 matrix, sums the two masked terms separately along each row, adds the two row sums, sums over
  the rows and divides by 8192.

  On the extended reals the two agree for every input: addition there is commutative and associative, so a row's sum
  of (a_j + b_j) is the sum of the a_j plus the sum of the b_j, and a sum over 8192 columns is the sum of its four
  tiles of 2048 taken in order; a change of float format is the identity, and the tile's matrix product into a zero
  accumulator is the plain sum of products. No step divides a product over a sum or cancels, so finiteness of the
  inputs is never used. The float literals 1.0, 0.3 and 8192.0 are the same words on both sides and are never evaluated.

  Each program's frame (it runs to the end, faults nowhere, leaves its arguments unchanged) is its run with the result
  forgotten; the idealization rewrote no operation, so there is nothing to preserve.
-/
import proofs.«178130_j58858231824724_2_alg».proof.Defs
import proofs.«178130_j58858231824724_2_alg».proof.Proof.Gen.Kernel
import proofs.«178130_j58858231824724_2_alg».proof.Proof.Gen.Kernel.Skeleton
import proofs.«178130_j58858231824724_2_alg».proof.Proof.Gen.Kernel.Launch
import proofs.«178130_j58858231824724_2_alg».proof.Proof.Gen.Kernel.Points
import proofs.«178130_j58858231824724_2_alg».proof.Proof.Gen.KernelIdeal
import proofs.«178130_j58858231824724_2_alg».proof.Proof.Gen.KernelIdeal.Skeleton
import proofs.«178130_j58858231824724_2_alg».proof.Proof.Gen.KernelIdeal.Launch
import proofs.«178130_j58858231824724_2_alg».proof.Proof.Gen.KernelIdeal.Points
import proofs.«178130_j58858231824724_2_alg».proof.Proof.Gen.ReferenceIdeal
import proofs.«178130_j58858231824724_2_alg».proof.Proof.Gen.ReferenceIdeal.Run
import proofs.«178130_j58858231824724_2_alg».proof.Proof.Gen.ReferenceIdeal.Read
import proofs.«178130_j58858231824724_2_alg».proof.Proof.Gen.Pre_finite_inputs
import proofs.«178130_j58858231824724_2_alg».proof.Proof.K.Launch
import proofs.«178130_j58858231824724_2_alg».proof.Proof.KI.Launch
import proofs.«178130_j58858231824724_2_alg».proof.Proof.KI.Accum
import proofs.«178130_j58858231824724_2_alg».proof.Proof.KI.Result
import proofs.«178130_j58858231824724_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its run, the result forgotten. -/
theorem frame_k : Cert.frame_Kernel := fun m ρ _ =>
  (θ_run Cert.Kernel.defs _ _).mono (fun _ h c => ⟨(h c).2.1, (h c).2.2⟩) (Cert.Kernel.Hand.run_main (F := Bits) m ρ)

/-- The same of the idealized kernel. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The reference is a straight line of host operations: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the mean of the row losses of the arguments: the kernel's result buffer by its
    run, the accumulation over the four column tiles and the host's sum and quotient; the reference's by its generated
    run read as sums. The two runs start from memories agreeing on the arguments. -/
theorem algebraic : Cert.algebraic_KernelIdeal_ReferenceIdeal := by
  intro m ρ m' ρ' _ hagree
  refine ⟨fun c _ => Cert.RefLoss.refLoss (Cert.KernelIdeal.Hand.argX m c) (Cert.KernelIdeal.Hand.argT m c), ?_, ?_⟩
  · refine (θ_run Cert.KernelIdeal.defs _ _).mono (fun _ h c => ⟨(h c).1.trans ?_, (h c).2.1, (h c).2.2⟩)
      (Cert.KernelIdeal.Hand.run_main (F := Ideal) m ρ)
    exact Cert.KernelIdeal.Hand.result_eq_of_fun m c (Cert.KernelIdeal.Hand.final4 m c)
  · refine (θ_run Cert.ReferenceIdeal.defs _ _).mono (fun _ h c => ⟨(h c).1.trans ?_, (h c).2.1, (h c).2.2⟩)
      (Cert.ReferenceIdeal.Value.run (F := Ideal) m' ρ')
    rw [(hagree c).1, (hagree c).2]
    exact Cert.RefLoss.ref_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
